-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S_ : Shape := ⟨0, ![]⟩
abbrev S3072x1024 : Shape := ⟨2, ![3072, 1024]⟩
abbrev S3072 : Shape := ⟨1, ![3072]⟩
abbrev S4096x3072 : Shape := ⟨2, ![4096, 3072]⟩
abbrev S512x1024 : Shape := ⟨2, ![512, 1024]⟩
abbrev S512x3072 : Shape := ⟨2, ![512, 3072]⟩
abbrev S1x3072 : Shape := ⟨2, ![1, 3072]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 25
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4096x1024, .f32⟩
  | .hbm, ⟨10, _⟩ => ⟨S4096x1024, .bf16⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S3072x1024, .f32⟩
  | .hbm, ⟨18, _⟩ => ⟨S3072, .f32⟩
  | .hbm, ⟨19, _⟩ => ⟨S3072x1024, .bf16⟩
  | .hbm, ⟨20, _⟩ => ⟨S4096x3072, .bf16⟩
  | .hbm, ⟨21, _⟩ => ⟨S4096x1024, .bf16⟩
  | .hbm, ⟨22, _⟩ => ⟨S1024x1024, .bf16⟩
  | .hbm, ⟨23, _⟩ => ⟨S4096x1024, .f32⟩
  | .hbm, ⟨24, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S3072x1024, .bf16⟩
  | .local _ .vmem, ⟨3, _⟩ => ⟨S3072, .f32⟩
  | .local _ .vmem, ⟨4, _⟩ => ⟨S512x3072, .bf16⟩
  | .local _ .vmem, ⟨5, _⟩ => ⟨S512x3072, .bf16⟩
  | .local _ .vmem, ⟨6, _⟩ => ⟨S512x128, .bf16⟩
  | .local _ .vmem, ⟨7, _⟩ => ⟨S512x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S512x128, .bf16⟩
  | .local _ .vmem, ⟨13, _⟩ => ⟨S512x128, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1024, .f32⟩
  | .local _ .vmem, ⟨18, _⟩ => ⟨S512x1024, .f32⟩
  | .local _ .vmem, ⟨19, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![2, 8, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2x2048x1024_S4096x1024 : S2x2048x1024.ShapeCasts S4096x1024
  bitsLt_bf16_f32 : FTy.bits .bf16 < FTy.bits .f32
  bcast_S_S1024x1024 : S_.BroadcastsInDim S1024x1024 (![] : Fin 0 → Fin S1024x1024.rank)
  bcast_S_S1024 : S_.BroadcastsInDim S1024 (![] : Fin 0 → Fin S1024.rank)
  concatenates_S1024x1024_S1024x1024_S1024x1024_S3072x1024_d0 : Shape.Concatenates [S1024x1024, S1024x1024, S1024x1024] S3072x1024 0
  concatenates_S1024_S1024_S1024_S3072_d0 : Shape.Concatenates [S1024, S1024, S1024] S3072 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  packedbf16_S512x128_S512x128_0_0 : (Rect.unit (s := S512x128) ![0, 0] S512x128.size inb_S512x128_S512x128_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S4096x1024_S2x2048x1024 : S4096x1024.ShapeCasts S2x2048x1024
  dot_S512x1024_S3072x1024_S512x3072_1_1_0_0_n_n_wf : DotDims.WF S512x1024 S3072x1024 S512x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x3072.size a
  hwx1_0 : ∀ i : grid1.Coords, EltTy.bits .bf16 = 32 ∨ (Rect.block (s := S4096x3072) S512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S4096x3072.size a
  hwx1_1 : ∀ i : grid1.Coords, EltTy.bits .bf16 = 32 ∨ (Rect.block (s := S4096x3072) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S4096x3072.size a
  hwx1_2 : ∀ i : grid1.Coords, EltTy.bits .bf16 = 32 ∨ (Rect.block (s := S4096x3072) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x1024.size a
  hwx1_3 : ∀ i : grid1.Coords, EltTy.bits .bf16 = 32 ∨ (Rect.block (s := S4096x1024) S512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2x2048x1024, .f32⟩
  | .hbm, ⟨10, _⟩ => ⟨S1x1x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S_, .f32⟩
  | .hbm, ⟨16, _⟩ => ⟨S_, .f32⟩
  | .hbm, ⟨17, _⟩ => ⟨S2x16x2048x64, .f32⟩
  | .hbm, ⟨18, _⟩ => ⟨S2x16x2048x64, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x16x64, .f32⟩
  | .hbm, ⟨24, _⟩ => ⟨S2x16x2048x64, .f32⟩
  | .hbm, ⟨25, _⟩ => ⟨S2x2048x1024, .f32⟩
  | .hbm, ⟨26, _⟩ => ⟨S1x1x1024, .f32⟩
  | .hbm, ⟨27, _⟩ => ⟨S2x2048x1024, .f32⟩
  | .hbm, ⟨28, _⟩ => ⟨S2x2048x1024, .f32⟩
  | .hbm, ⟨29, _⟩ => ⟨S2x2048x16x64, .f32⟩
  | .hbm, ⟨30, _⟩ => ⟨S2x16x2048x64, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S_, .f32⟩
  | .hbm, ⟨35, _⟩ => ⟨S2x16x2048, .f32⟩
  | .hbm, ⟨36, _⟩ => ⟨S2x16x2048, .f32⟩
  | .hbm, ⟨37, _⟩ => ⟨S2x16x2048x1, .f32⟩
  | .hbm, ⟨38, _⟩ => ⟨S2x16x2048x2048, .f32⟩
  | .hbm, ⟨39, _⟩ => ⟨S2x16x2048x2048, .f32⟩
  | .hbm, ⟨40, _⟩ => ⟨S2x16x2048x2048, .f32⟩
  | .hbm, ⟨41, _⟩ => ⟨S_, .f32⟩
  | .hbm, ⟨42, _⟩ => ⟨S2x16x2048, .f32⟩
  | .hbm, ⟨43, _⟩ => ⟨S2x16x2048x1, .f32⟩
  | .hbm, ⟨44, _⟩ => ⟨S2x16x2048x2048, .f32⟩
  | .hbm, ⟨45, _⟩ => ⟨S2x16x2048x2048, .f32⟩
  | .hbm, ⟨46, _⟩ => ⟨S2x16x2048x64, .f32⟩
  | .hbm, ⟨47, _⟩ => ⟨S2x2048x16x64, .f32⟩
  | .hbm, ⟨48, _⟩ => ⟨S2x2048x1024, .f32⟩
  | .hbm, ⟨49, _⟩ => ⟨S2x2048x1024, .f32⟩
  | .hbm, ⟨50, _⟩ => ⟨S1x1x1024, .f32⟩
  | .hbm, ⟨51, _⟩ => ⟨S2x2048x1024, .f32⟩
  | .hbm, ⟨52, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x64 : S_.BroadcastsInDim S2x16x2048x64 (![] : Fin 0 → Fin S2x16x2048x64.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KkRegion0.lean ====
/-
  Region 0 of the program: the fused q/k/v projection. One grid point handles 512 token rows: it multiplies the
  512×1024 block of (rounded) activations by the whole 3072×1024 stacked weight, contracting the shared 1024 axis, adds
  the stacked bias along the rows, and stores the 512×3072 result block. This module states what the body leaves in
  its output buffer as a function of the three input blocks, runs the body once against that description, and packs
  the result as the pipeline's proof data and body obligation, at the contents `V` the region is entered with.
-/
import proofs.«158308_j21560735826201_2_alg».proof.Proof.Gen.Kernel.Launch
import proofs.«158308_j21560735826201_2_alg».proof.Proof.Gen.Kernel.Skeleton
import proofs.«158308_j21560735826201_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the block was fetched there: where
    it was not, the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S3072 := Rect.unit (s := S3072) ![0] S3072.size inb_S3072_S3072_0
abbrev r0_3 : Rect S512x3072 := Rect.unit (s := S512x3072) ![0, 0] S512x3072.size inb_S512x3072_S512x3072_0_0

/-- The output buffer after the body: its single whole-buffer store of the projection of the three input blocks. -/
def out0_3 (x0 : Vec F S512x1024 .bf16) (x1 : Vec F S3072x1024 .bf16) (x2 : Vec F S3072 .f32) : Vec F S512x3072 .bf16 :=
  View.canon [⟨r0_3, k0_pay1 (View.ld x0 r0_0) (View.ld x1 r0_1) (View.ld x2 r0_2)⟩]

/-- That one store covers the buffer. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in
/-- The body, on whole staging memrefs holding the input blocks `x0 x1 x2` and any output contents, runs to the
    continuation with the inputs as they were and the output at `out0_3 x0 x1 x2`. -/
theorem sound_kernel0 (c : Dev nD) (E : Set ℕ) (i : grid0.Coords)
    (arg1 : Memref sig .tc .vmem S512x1024 .bf16) (harg1 : arg1.IsWhole) (arg2 : Memref sig .tc .vmem S3072x1024 .bf16) (harg2 : arg2.IsWhole)
    (arg3 : Memref sig .tc .vmem S3072 .f32) (harg3 : arg3.IsWhole) (arg4 : Memref sig .tc .vmem S512x3072 .bf16) (harg4 : arg4.IsWhole)
    (x0 : Vec F S512x1024 .bf16) (x1 : Vec F S3072x1024 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body each input buffer
    still at its block and the output at `out0_3` of the input blocks; the invariant is the scoped rest and the
    generator register, untouched; nothing is owed; every array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Rg

end
-- ==== Proof.KkRegion1.lean ====
/-
  Region 1 of the program: softmax attention. One grid point handles one batch entry, one pair of heads (128 adjacent
  columns) and 512 query rows: from the 512×128 query block and the 2048×128 key and value blocks it forms, for each of
  the two 64-column heads, the 512×2048 scores (queries against keys over the 64 head columns), their row-wise softmax
  (row maximum subtracted, exponentials, divided by the row sum), and the 512×64 product with the values; the two
  results side by side are the 512×128 output block. This module states what the body leaves in its output buffer as a
  function of the three input blocks, runs the body once against that description, and packs the result as the
  pipeline's proof data and body obligation, at the contents `V` the region is entered with.
-/
import proofs.«158308_j21560735826201_2_alg».proof.Proof.Gen.Kernel.Launch
import proofs.«158308_j21560735826201_2_alg».proof.Proof.Gen.Kernel.Skeleton
import proofs.«158308_j21560735826201_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not the block was fetched there: where
    it was not, the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S512x128 := Rect.unit (s := S512x128) ![0, 0] S512x128.size inb_S512x128_S512x128_0_0
abbrev r1_1 : Rect S2048x128 := Rect.unit (s := S2048x128) ![0, 0] S2048x128.size inb_S2048x128_S2048x128_0_0
abbrev r1_2 : Rect S2048x128 := Rect.unit (s := S2048x128) ![0, 0] S2048x128.size inb_S2048x128_S2048x128_0_0
abbrev r1_3 : Rect S512x128 := Rect.unit (s := S512x128) ![0, 0] S512x128.size inb_S512x128_S512x128_0_0

/-- The output buffer after the body: its single whole-buffer store of the two heads' attention outputs side by side, computed from the three input blocks. -/
def out1_3 (x0 : Vec F S512x128 .bf16) (x1 : Vec F S2048x128 .bf16) (x2 : Vec F S2048x128 .bf16) : Vec F S512x128 .bf16 :=
  View.canon [⟨r1_3, k1_pay1 (View.ld x0 r1_0) (View.ld x1 r1_1) (View.ld x2 r1_2)⟩]

/-- That one store covers the buffer. -/
theorem cover1_3 (p0 : Vec F S512x128 .bf16) (y : S512x128.Idx) :
    ∃ pc ∈ ([⟨r1_3, p0⟩] : List (View.Piece (Elt F) S512x128 .bf16)), y ∈ pc.1.set :=
  View.cover_of_tiled [⟨r1_3, p0⟩] S512x128.size (by rfl) y

set_option maxHeartbeats 1000000 in
/-- The body, on whole staging memrefs holding the input blocks `x0 x1 x2` and any output contents, runs to the
    continuation with the inputs as they were and the output at `out1_3 x0 x1 x2`. -/
theorem sound_kernel1 (c : Dev nD) (E : Set ℕ) (i : grid1.Coords)
    (arg1 : Memref sig .tc .vmem S512x128 .bf16) (harg1 : arg1.IsWhole) (arg2 : Memref sig .tc .vmem S2048x128 .bf16) (harg2 : arg2.IsWhole)
    (arg3 : Memref sig .tc .vmem S2048x128 .bf16) (harg3 : arg3.IsWhole) (arg4 : Memref sig .tc .vmem S512x128 .bf16) (harg4 : arg4.IsWhole)
    (x0 : Vec F S512x128 .bf16) (x1 : Vec F S2048x128 .bf16) (x2 : Vec F S2048x128 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__attn_kernel i arg1 harg1 arg2 harg2 arg3 harg3 arg4 harg4) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 0 on core `c`: the arrays as the region finds them; after the body each input buffer
    still at its block and the output at `out1_3` of the input blocks; the invariant is the scoped rest and the
    generator register, untouched; nothing is owed; the three input windows read one array and hold a third of it each (the left half, and the two halves of the right half), the output array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Rg

end
-- ==== Proof.KkRegion2.lean ====
/-
  Region 2 of the program: the output projection. One grid point handles 512 token rows: it multiplies the 512×1024
  block of attention outputs by the whole (rounded) 1024×1024 output weight, contracting the shared 1024 axis, adds the
  bias along the rows, and stores the 512×1024 result block in f32. This module states what the body leaves in its
  output buffer as a function of the three input blocks, runs the body once against that description, and packs the
  result as the pipeline's proof data and body obligation, at the contents `V` the region is entered with.
-/
import proofs.«158308_j21560735826201_2_alg».proof.Proof.Gen.Kernel.Launch
import proofs.«158308_j21560735826201_2_alg».proof.Proof.Gen.Kernel.Skeleton
import proofs.«158308_j21560735826201_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether or not the block was fetched there: where
    it was not, the block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1024 := Rect.unit (s := S1024) ![0] S1024.size inb_S1024_S1024_0
abbrev r2_3 : Rect S512x1024 := Rect.unit (s := S512x1024) ![0, 0] S512x1024.size inb_S512x1024_S512x1024_0_0

/-- The output buffer after the body: its single whole-buffer store of the projection of the three input blocks. -/
def out2_3 (x0 : Vec F S512x1024 .bf16) (x1 : Vec F S1024x1024 .bf16) (x2 : Vec F S1024 .f32) : Vec F S512x1024 .f32 :=
  View.canon [⟨r2_3, k2_pay1 (View.ld x0 r2_0) (View.ld x1 r2_1) (View.ld x2 r2_2)⟩]

/-- That one store covers the buffer. -/
theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

set_option maxHeartbeats 1000000 in
/-- The body, on whole staging memrefs holding the input blocks `x0 x1 x2` and any output contents, runs to the
    continuation with the inputs as they were and the output at `out2_3 x0 x1 x2`. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S512x1024 .f32) (harg4 : arg4.IsWhole)
    (x0 : Vec F S512x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 0 on core `c`: the arrays as the region finds them; after the body each input buffer
    still at its block and the output at `out2_3` of the input blocks; the invariant is the scoped rest and the
    generator register, untouched; nothing is owed; every array is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Rg

end
-- ==== Proof.KkRun.lean ====
/-
  The whole program as a run. Between @main's six items — host operations, the projection region, the attention
  region, one host conversion, the output-projection region, the final reshape — every unscoped buffer of a core holds
  known contents: the launch memory, then each host stretch applied to what came before, then each region's output
  array replaced by what that region's write-backs leave and everything else untouched. The three regions are entered
  and left at these contents, and the run ends with the result buffer at the last of them and the argument arrays as
  launched.
-/
import proofs.«158308_j21560735826201_2_alg».proof.Proof.KkRegion0
import proofs.«158308_j21560735826201_2_alg».proof.Proof.KkRegion1
import proofs.«158308_j21560735826201_2_alg».proof.Proof.KkRegion2
import proofs.«158308_j21560735826201_2_alg».proof.Proof.Gen.Kernel.Regions

set_option maxRecDepth 16384

noncomputable section

namespace Cert.Kernel.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 (c : Dev nD) : Valuation τ sig (Elt F) := fun b => m (c, b)
/-- After the first host stretch (the projection region's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the projection region: its output array at what the write-backs leave. -/
def W2 (c : Dev nD) : Valuation τ sig (Elt F) :=
  Function.update (W1 m c) (Proc.devRef .tc main_v9) ((dat0 (V1 m) c).arrAt 3 cfg0.N)
abbrev V2 : (c : Dev nD) → (b : Ref sig .tc) → Buf (Elt F) ((c : Thread nD τ).loc b) := fun c b => W2 m c b
/-- After the attention region. -/
def W3 (c : Dev nD) : Valuation τ sig (Elt F) :=
  Function.update (W2 m c) (Proc.devRef .tc main_v10) ((dat1 (V2 m) c).arrAt 3 cfg1.N)
/-- After the host conversion of the output weight (the output projection's entry). -/
abbrev W4 (c : Dev nD) : Valuation τ sig (Elt F) := StableHlo.after hostOps2 (W3 m c)
abbrev V4 : (c : Dev nD) → (b : Ref sig .tc) → Buf (Elt F) ((c : Thread nD τ).loc b) := fun c b => W4 m c b
/-- After the output projection. -/
def W5 (c : Dev nD) : Valuation τ sig (Elt F) :=
  Function.update (W4 m c) (Proc.devRef .tc main_v12) ((dat2 (V4 m) c).arrAt 3 cfg2.N)
abbrev V5 : (c : Dev nD) → (b : Ref sig .tc) → Buf (Elt F) ((c : Thread nD τ).loc b) := fun c b => W5 m c b
abbrev V3 : (c : Dev nD) → (b : Ref sig .tc) → Buf (Elt F) ((c : Thread nD τ).loc b) := fun c b => W3 m c b
/-- After the final reshape. -/
abbrev W6 (c : Dev nD) : Valuation τ sig (Elt F) := StableHlo.after hostOps3 (W5 m c)

theorem W2_same (c : Dev nD) : W2 m c (Proc.devRef .tc main_v9) = (dat0 (V1 m) c).arrAt 3 cfg0.N := by
  unfold W2; exact Function.update_self ..
theorem W2_of (c : Dev nD) (r : Ref sig .tc) (h : r ≠ main_v9) : W2 m c (Proc.devRef .tc r) = W1 m c (Proc.devRef .tc r) := by
  unfold W2; exact Function.update_of_ne (StableHlo.devRef_ne_of_ne h) ..
theorem W3_same (c : Dev nD) : W3 m c (Proc.devRef .tc main_v10) = (dat1 (V2 m) c).arrAt 3 cfg1.N := by
  unfold W3; exact Function.update_self ..
theorem W3_of (c : Dev nD) (r : Ref sig .tc) (h : r ≠ main_v10) : W3 m c (Proc.devRef .tc r) = W2 m c (Proc.devRef .tc r) := by
  unfold W3; exact Function.update_of_ne (StableHlo.devRef_ne_of_ne h) ..
theorem W5_same (c : Dev nD) : W5 m c (Proc.devRef .tc main_v12) = (dat2 (V4 m) c).arrAt 3 cfg2.N := by
  unfold W5; exact Function.update_self ..
theorem W5_of (c : Dev nD) (r : Ref sig .tc) (h : r ≠ main_v12) : W5 m c (Proc.devRef .tc r) = W4 m c (Proc.devRef .tc r) := by
  unfold W5; exact Function.update_of_ne (StableHlo.devRef_ne_of_ne h) ..
theorem W1_of (c : Dev nD) (r : Ref sig .tc) (h : r ∉ hostOps0_W) : W1 m c (Proc.devRef .tc r) = W0 m c (Proc.devRef .tc r) :=
  StableHlo.after_of_writes_sub hostOps0 _ hostOps0_writes h
theorem W4_of (c : Dev nD) (r : Ref sig .tc) (h : r ∉ hostOps2_W) : W4 m c (Proc.devRef .tc r) = W3 m c (Proc.devRef .tc r) :=
  StableHlo.after_of_writes_sub hostOps2 _ hostOps2_writes h
theorem W6_of (c : Dev nD) (r : Ref sig .tc) (h : r ∉ hostOps3_W) : W6 m c (Proc.devRef .tc r) = W5 m c (Proc.devRef .tc r) :=
  StableHlo.after_of_writes_sub hostOps3 _ hostOps3_writes h

/-- A buffer no host stretch writes and no region outputs into ends as launched. -/
theorem W6_kept (c : Dev nD) (r : Ref sig .tc) (h0 : r ∉ hostOps0_W) (h9 : r ≠ main_v9) (h10 : r ≠ main_v10)
    (h2 : r ∉ hostOps2_W) (h12 : r ≠ main_v12) (h3 : r ∉ hostOps3_W) :
    W6 m c (Proc.devRef .tc r) = m ((c : Thread nD τ).loc r) :=
  (W6_of m c r h3).trans <| (W5_of m c r h12).trans <| (W4_of m c r h2).trans <| (W3_of m c r h10).trans <|
    (W2_of m c r h9).trans <| (W1_of m c r h0).trans rfl

/-! ## Each region's arrays at its exit -/

theorem hF0 (c : Dev nD) : ∀ w : Fin cfg0.W, (dat0 (V1 m) c).arrAt w cfg0.N = V2 m c (Pipeline.arrRef spec0 w)
  | ⟨0, _⟩ => (((dat0 (V1 m) c).arrAt_in 0 rfl _).trans (A_eq0 (V1 m) c 0)).trans (W2_of m c _ (by decide)).symm
  | ⟨1, _⟩ => (((dat0 (V1 m) c).arrAt_in 1 rfl _).trans (A_eq0 (V1 m) c 1)).trans (W2_of m c _ (by decide)).symm
  | ⟨2, _⟩ => (((dat0 (V1 m) c).arrAt_in 2 rfl _).trans (A_eq0 (V1 m) c 2)).trans (W2_of m c _ (by decide)).symm
  | ⟨3, _⟩ => (W2_same m c).symm
theorem hrest0 (c : Dev nD) : ∀ b, b ∉ Finset.univ.image (Pipeline.arrRef spec0) → V2 m c b = V1 m c b :=
  fun b hb => W2_of m c b fun e => hb (Finset.mem_image.mpr ⟨3, Finset.mem_univ _, e.symm⟩)
theorem hF2 (c : Dev nD) : ∀ w : Fin cfg2.W, (dat2 (V4 m) c).arrAt w cfg2.N = V5 m c (Pipeline.arrRef spec2 w)
  | ⟨0, _⟩ => (((dat2 (V4 m) c).arrAt_in 0 rfl _).trans (A_eq2 (V4 m) c 0)).trans (W5_of m c _ (by decide)).symm
  | ⟨1, _⟩ => (((dat2 (V4 m) c).arrAt_in 1 rfl _).trans (A_eq2 (V4 m) c 1)).trans (W5_of m c _ (by decide)).symm
  | ⟨2, _⟩ => (((dat2 (V4 m) c).arrAt_in 2 rfl _).trans (A_eq2 (V4 m) c 2)).trans (W5_of m c _ (by decide)).symm
  | ⟨3, _⟩ => (W5_same m c).symm
theorem hrest2 (c : Dev nD) : ∀ b, b ∉ Finset.univ.image (Pipeline.arrRef spec2) → V5 m c b = V4 m c b :=
  fun b hb => W5_of m c b fun e => hb (Finset.mem_image.mpr ⟨3, Finset.mem_univ _, e.symm⟩)

/-! ## The proof data family and the thread state -/

/-- No pipeline has a prefetched table. -/
abbrev padm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) padm p) c
  | ⟨0, _⟩ => fun c => dat0 (V1 m) c
  | ⟨1, _⟩ => fun c => dat1 (V2 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered with every unscoped buffer at the boundary contents before it and left
    with them at the contents after it. Its arrays are split out of the unscoped buffers on entry and put back, at
    what the write-backs leave, on exit; the generator register goes into the pipeline's invariant and comes back;
    nothing is owed; the kernel has no semaphore of its own. -/
def reg0 : Pipeline.RegionSeg (pcfgs (F := F)) padm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the boundary contents before it and left
    with them at the contents after it. Its arrays are split out of the unscoped buffers on entry and put back, at
    what the write-backs leave, on exit; the generator register goes into the pipeline's invariant and comes back;
    nothing is owed; the kernel has no semaphore of its own. -/
def reg2 : Pipeline.RegionSeg (pcfgs (F := F)) padm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) padm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The two distinct buffers behind the attention region's four windows, each held whole, make the windows' arrays at
    entry: the projection output's points-to is split in three, one part per input window. -/
theorem arrays1_of_bufs (c : Dev nD) :
    (Pipeline.arrBufs (Ix := Unit) (Name := ℕ) (U := UR sig nD τ) (Lvl := ℕ) spec1 c (V2 m c) : sProp 𝕄)
      ⊢ (pdats m 1 c).arrays fun w => (pdats m 1 c).arrAt w 0 := by
  have hA : (pdats m 1 c).arrays (fun w => (pdats m 1 c).arrAt w 0)
      = bigSep Finset.univ fun w : Fin 4 => (((c.tc : Thread nD τ).loc (Pipeline.arrRef spec1 w)) ↦{(pdats m 1 c).share w} (pdats m 1 c).arrAt w 0 : sProp 𝕄) := by
    unfold Pipeline.Dat.arrays
    exact bigSep_congr fun w _ => by
      have hs : ((Pipeline.pin (pcfgs (F := F)) padm 1).win w).arr.view.set = Finset.univ := (arr_whole1 w).set_eq_univ
      rw [hs]
      rfl
  unfold Pipeline.arrBufs
  rw [hA, show Finset.univ.image (Pipeline.arrRef spec1) = {main_v9, main_v10} from by decide,
    bigSep_insert (by decide), bigSep_singleton, bigSep_W1]
  show iprop(((c.tc : Thread nD τ).loc main_v9 ↦{fullShare} V2 m c main_v9) ∗ ((c.tc : Thread nD τ).loc main_v10 ↦{fullShare} V2 m c main_v10)) ⊢ iprop(((c.tc : Thread nD τ).loc main_v9 ↦{fullShare.left} V2 m c main_v9)
      ∗ ((c.tc : Thread nD τ).loc main_v9 ↦{fullShare.right.left} V2 m c main_v9)
      ∗ ((c.tc : Thread nD τ).loc main_v9 ↦{fullShare.right.right} V2 m c main_v9)
      ∗ ((c.tc : Thread nD τ).loc main_v10 ↦{fullShare} V2 m c main_v10))
  iintro ⟨H9, H10⟩
  ihave H := (pointsTo_share (PosShare.mem_left_op_right fullShare)).1 $$ H9
  icases H with ⟨Ha, Hb⟩
  ihave H' := (pointsTo_share (PosShare.mem_left_op_right fullShare.right)).1 $$ Hb
  icases H' with ⟨Hb, Hc⟩
  isplitl [Ha]; · iexact Ha
  isplitl [Hb]; · iexact Hb
  isplitl [Hc]; · iexact Hc
  iexact H10

set_option backward.isDefEq.respectTransparency.types false in
/-- Conversely, at the region's exit: the three input windows still hold the projection output's contents, a third each,
    so their parts join to that buffer held whole; the output window's array holds what the write-backs left. -/
theorem bufs_of_arrays1 (c : Dev nD) :
    ((pdats m 1 c).arrays fun w => (pdats m 1 c).arrAt w cfg1.N)
      ⊢ (Pipeline.arrBufs (Ix := Unit) (Name := ℕ) (U := UR sig nD τ) (Lvl := ℕ) spec1 c (V3 m c) : sProp 𝕄) := by
  have hA : (pdats m 1 c).arrays (fun w => (pdats m 1 c).arrAt w cfg1.N)
      = bigSep Finset.univ fun w : Fin 4 => (((c.tc : Thread nD τ).loc (Pipeline.arrRef spec1 w)) ↦{(pdats m 1 c).share w} (pdats m 1 c).arrAt w cfg1.N : sProp 𝕄) := by
    unfold Pipeline.Dat.arrays
    exact bigSep_congr fun w _ => by
      have hs : ((Pipeline.pin (pcfgs (F := F)) padm 1).win w).arr.view.set = Finset.univ := (arr_whole1 w).set_eq_univ
      rw [hs]
      rfl
  have h0 : (dat1 (V2 m) c).arrAt 0 cfg1.N = V3 m c main_v9 :=
    (((dat1 (V2 m) c).arrAt_in 0 rfl _).trans (A_eq1 (V2 m) c 0)).trans (W3_of m c main_v9 (by decide)).symm
  have h1 : (dat1 (V2 m) c).arrAt 1 cfg1.N = V3 m c main_v9 :=
    (((dat1 (V2 m) c).arrAt_in 1 rfl _).trans (A_eq1 (V2 m) c 1)).trans (W3_of m c main_v9 (by decide)).symm
  have h2 : (dat1 (V2 m) c).arrAt 2 cfg1.N = V3 m c main_v9 :=
    (((dat1 (V2 m) c).arrAt_in 2 rfl _).trans (A_eq1 (V2 m) c 2)).trans (W3_of m c main_v9 (by decide)).symm
  have h3 : (dat1 (V2 m) c).arrAt 3 cfg1.N = V3 m c main_v10 := (W3_same m c).symm
  unfold Pipeline.arrBufs
  rw [hA, show Finset.univ.image (Pipeline.arrRef spec1) = {main_v9, main_v10} from by decide,
    bigSep_insert (by decide), bigSep_singleton, bigSep_W1]
  show iprop(((c.tc : Thread nD τ).loc main_v9 ↦{fullShare.left} (dat1 (V2 m) c).arrAt 0 cfg1.N)
      ∗ ((c.tc : Thread nD τ).loc main_v9 ↦{fullShare.right.left} (dat1 (V2 m) c).arrAt 1 cfg1.N)
      ∗ ((c.tc : Thread nD τ).loc main_v9 ↦{fullShare.right.right} (dat1 (V2 m) c).arrAt 2 cfg1.N)
      ∗ ((c.tc : Thread nD τ).loc main_v10 ↦{fullShare} (dat1 (V2 m) c).arrAt 3 cfg1.N))
    ⊢ iprop(((c.tc : Thread nD τ).loc main_v9 ↦{fullShare} V3 m c main_v9) ∗ ((c.tc : Thread nD τ).loc main_v10 ↦{fullShare} V3 m c main_v10))
  rw [h0, h1, h2, h3]
  iintro ⟨Ha, Hb, Hc, H10⟩
  isplitl [Ha Hb Hc]
  · iapply (pointsTo_share (PosShare.mem_left_op_right fullShare)).2
    isplitl [Ha]; · iexact Ha
    iapply (pointsTo_share (PosShare.mem_left_op_right fullShare.right)).2
    isplitl [Hb]; · iexact Hb
    iexact Hc
  iexact H10

set_option backward.isDefEq.respectTransparency.types false in
/-- The attention region. Its three input windows read ONE array (the projection's output), so on entry that array's
    whole points-to is split three ways among them and on exit the three parts are joined again; the output window's
    array is held whole. -/
def reg1 : Pipeline.RegionSeg (pcfgs (F := F)) padm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsp : (unscopedBufs c (V2 m c) : sProp 𝕄)
        = iprop(Pipeline.arrBufs spec1 c (V2 m c) ∗ Pipeline.unscopedRest spec1 c (V2 m c)) :=
      Pipeline.unscopedBufs_split₀ cfgs 1 winFacts₀1.arr_unscoped c (V2 m c)
    rw [Pipeline.unscopedBufs_held] at hsp
    rw [hsp]
    iintro ⟨⟨⟨Hab, Hrest⟩, Hp, HO⟩, -, -⟩
    imodintro
    isplitl [Hab]; · iapply (arrays1_of_bufs m c); iexact Hab
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsp : (unscopedBufs c (V3 m c) : sProp 𝕄)
        = iprop(Pipeline.arrBufs spec1 c (V3 m c) ∗ Pipeline.unscopedRest spec1 c (V3 m c)) :=
      Pipeline.unscopedBufs_split₀ cfgs 1 winFacts₀1.arr_unscoped c (V3 m c)
    rw [Pipeline.unscopedBufs_held] at hsp
    have hrest : (Pipeline.unscopedRest spec1 c (V3 m c) : sProp 𝕄) = Pipeline.unscopedRest spec1 c (V2 m c) := by
      unfold Pipeline.unscopedRest
      exact bigSep_congr fun b hb => by
        rw [show V3 m c b = V2 m c b from W3_of m c b fun e =>
          (Finset.mem_sdiff.mp hb).2 (Finset.mem_image.mpr ⟨3, Finset.mem_univ _, e.symm⟩)]
    rw [hsp, hrest]
    iintro ⟨Ha, HO, HY, Hrest⟩
    imodintro
    isplitl [Ha Hrest]
    · isplitl [Ha]; · iapply (bufs_of_arrays1 m c); iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) padm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)) ]
theorem main_run (c : Dev nD) : main (F := F) c = Pipeline.Seg.run (segs m) := (main_chain c).trans (by chain_rfl)

set_option backward.isDefEq.respectTransparency.types false in
/-- THE RUN: from any memory with zero counters every weakly fair execution of @main terminates without a fault, the
    result buffer ends at the last boundary's contents and every argument array as launched. -/
theorem run_main : θ_run defs (onTc (τ := τ) (main (F := F))) ⟨m, fun _ => 0, ρ⟩ (fun r => ∀ c : Dev nD,
      r.2.mem ((c.tc : Thread nD τ).loc main_v13) = W6 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) padm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨h c _ (mem_uc main_v13 (by decide)),
       (h c _ (mem_uc main_arg0 (by decide))).trans (W6_kept m c main_arg0 (by decide) (by decide) (by decide) (by decide) (by decide) (by decide)),
       (h c _ (mem_uc main_arg1 (by decide))).trans (W6_kept m c main_arg1 (by decide) (by decide) (by decide) (by decide) (by decide) (by decide)),
       (h c _ (mem_uc main_arg2 (by decide))).trans (W6_kept m c main_arg2 (by decide) (by decide) (by decide) (by decide) (by decide) (by decide)),
       (h c _ (mem_uc main_arg3 (by decide))).trans (W6_kept m c main_arg3 (by decide) (by decide) (by decide) (by decide) (by decide) (by decide)),
       (h c _ (mem_uc main_arg4 (by decide))).trans (W6_kept m c main_arg4 (by decide) (by decide) (by decide) (by decide) (by decide) (by decide)),
       (h c _ (mem_uc main_arg5 (by decide))).trans (W6_kept m c main_arg5 (by decide) (by decide) (by decide) (by decide) (by decide) (by decide)),
       (h c _ (mem_uc main_arg6 (by decide))).trans (W6_kept m c main_arg6 (by decide) (by decide) (by decide) (by decide) (by decide) (by decide)),
       (h c _ (mem_uc main_arg7 (by decide))).trans (W6_kept m c main_arg7 (by decide) (by decide) (by decide) (by decide) (by decide) (by decide)),
       (h c _ (mem_uc main_arg8 (by decide))).trans (W6_kept m c main_arg8 (by decide) (by decide) (by decide) (by decide) (by decide) (by decide))⟩)

end Cert.Kernel.Rg

end
-- ==== Proof.KiRegion0.lean ====
/-
  Region 0 of the program: the fused q/k/v projection. One grid point handles 512 token rows: it multiplies the
  512×1024 block of (rounded) activations by the whole 3072×1024 stacked weight, contracting the shared 1024 axis, adds
  the stacked bias along the rows, and stores the 512×3072 result block. This module states what the body leaves in
  its output buffer as a function of the three input blocks, runs the body once against that description, and packs
  the result as the pipeline's proof data and body obligation, at the contents `V` the region is entered with.
-/
import proofs.«158308_j21560735826201_2_alg».proof.Proof.Gen.KernelIdeal.Launch
import proofs.«158308_j21560735826201_2_alg».proof.Proof.Gen.KernelIdeal.Skeleton
import proofs.«158308_j21560735826201_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the block was fetched there: where
    it was not, the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S3072 := Rect.unit (s := S3072) ![0] S3072.size inb_S3072_S3072_0
abbrev r0_3 : Rect S512x3072 := Rect.unit (s := S512x3072) ![0, 0] S512x3072.size inb_S512x3072_S512x3072_0_0

/-- The output buffer after the body: its single whole-buffer store of the projection of the three input blocks. -/
def out0_3 (x0 : Vec F S512x1024 .bf16) (x1 : Vec F S3072x1024 .bf16) (x2 : Vec F S3072 .f32) : Vec F S512x3072 .bf16 :=
  View.canon [⟨r0_3, k0_pay1 (View.ld x0 r0_0) (View.ld x1 r0_1) (View.ld x2 r0_2)⟩]

/-- That one store covers the buffer. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in
/-- The body, on whole staging memrefs holding the input blocks `x0 x1 x2` and any output contents, runs to the
    continuation with the inputs as they were and the output at `out0_3 x0 x1 x2`. -/
theorem sound_kernel0 (c : Dev nD) (E : Set ℕ) (i : grid0.Coords)
    (arg1 : Memref sig .tc .vmem S512x1024 .bf16) (harg1 : arg1.IsWhole) (arg2 : Memref sig .tc .vmem S3072x1024 .bf16) (harg2 : arg2.IsWhole)
    (arg3 : Memref sig .tc .vmem S3072 .f32) (harg3 : arg3.IsWhole) (arg4 : Memref sig .tc .vmem S512x3072 .bf16) (harg4 : arg4.IsWhole)
    (x0 : Vec F S512x1024 .bf16) (x1 : Vec F S3072x1024 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body each input buffer
    still at its block and the output at `out0_3` of the input blocks; the invariant is the scoped rest and the
    generator register, untouched; nothing is owed; every array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Rg

end
-- ==== Proof.KiRegion1.lean ====
/-
  Region 1 of the program: softmax attention. One grid point handles one batch entry, one pair of heads (128 adjacent
  columns) and 512 query rows: from the 512×128 query block and the 2048×128 key and value blocks it forms, for each of
  the two 64-column heads, the 512×2048 scores (queries against keys over the 64 head columns), their row-wise softmax
  (row maximum subtracted, exponentials, divided by the row sum), and the 512×64 product with the values; the two
  results side by side are the 512×128 output block. This module states what the body leaves in its output buffer as a
  function of the three input blocks, runs the body once against that description, and packs the result as the
  pipeline's proof data and body obligation, at the contents `V` the region is entered with.
-/
import proofs.«158308_j21560735826201_2_alg».proof.Proof.Gen.KernelIdeal.Launch
import proofs.«158308_j21560735826201_2_alg».proof.Proof.Gen.KernelIdeal.Skeleton
import proofs.«158308_j21560735826201_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not the block was fetched there: where
    it was not, the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S512x128 := Rect.unit (s := S512x128) ![0, 0] S512x128.size inb_S512x128_S512x128_0_0
abbrev r1_1 : Rect S2048x128 := Rect.unit (s := S2048x128) ![0, 0] S2048x128.size inb_S2048x128_S2048x128_0_0
abbrev r1_2 : Rect S2048x128 := Rect.unit (s := S2048x128) ![0, 0] S2048x128.size inb_S2048x128_S2048x128_0_0
abbrev r1_3 : Rect S512x128 := Rect.unit (s := S512x128) ![0, 0] S512x128.size inb_S512x128_S512x128_0_0

/-- The output buffer after the body: its single whole-buffer store of the two heads' attention outputs side by side, computed from the three input blocks. -/
def out1_3 (x0 : Vec F S512x128 .bf16) (x1 : Vec F S2048x128 .bf16) (x2 : Vec F S2048x128 .bf16) : Vec F S512x128 .bf16 :=
  View.canon [⟨r1_3, k1_pay1 (View.ld x0 r1_0) (View.ld x1 r1_1) (View.ld x2 r1_2)⟩]

/-- That one store covers the buffer. -/
theorem cover1_3 (p0 : Vec F S512x128 .bf16) (y : S512x128.Idx) :
    ∃ pc ∈ ([⟨r1_3, p0⟩] : List (View.Piece (Elt F) S512x128 .bf16)), y ∈ pc.1.set :=
  View.cover_of_tiled [⟨r1_3, p0⟩] S512x128.size (by rfl) y

set_option maxHeartbeats 1000000 in
/-- The body, on whole staging memrefs holding the input blocks `x0 x1 x2` and any output contents, runs to the
    continuation with the inputs as they were and the output at `out1_3 x0 x1 x2`. -/
theorem sound_kernel1 (c : Dev nD) (E : Set ℕ) (i : grid1.Coords)
    (arg1 : Memref sig .tc .vmem S512x128 .bf16) (harg1 : arg1.IsWhole) (arg2 : Memref sig .tc .vmem S2048x128 .bf16) (harg2 : arg2.IsWhole)
    (arg3 : Memref sig .tc .vmem S2048x128 .bf16) (harg3 : arg3.IsWhole) (arg4 : Memref sig .tc .vmem S512x128 .bf16) (harg4 : arg4.IsWhole)
    (x0 : Vec F S512x128 .bf16) (x1 : Vec F S2048x128 .bf16) (x2 : Vec F S2048x128 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__attn_kernel i arg1 harg1 arg2 harg2 arg3 harg3 arg4 harg4) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 0 on core `c`: the arrays as the region finds them; after the body each input buffer
    still at its block and the output at `out1_3` of the input blocks; the invariant is the scoped rest and the
    generator register, untouched; nothing is owed; the three input windows read one array and hold a third of it each (the left half, and the two halves of the right half), the output array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Rg

end
-- ==== Proof.KiRegion2.lean ====
/-
  Region 2 of the program: the output projection. One grid point handles 512 token rows: it multiplies the 512×1024
  block of attention outputs by the whole (rounded) 1024×1024 output weight, contracting the shared 1024 axis, adds the
  bias along the rows, and stores the 512×1024 result block in f32. This module states what the body leaves in its
  output buffer as a function of the three input blocks, runs the body once against that description, and packs the
  result as the pipeline's proof data and body obligation, at the contents `V` the region is entered with.
-/
import proofs.«158308_j21560735826201_2_alg».proof.Proof.Gen.KernelIdeal.Launch
import proofs.«158308_j21560735826201_2_alg».proof.Proof.Gen.KernelIdeal.Skeleton
import proofs.«158308_j21560735826201_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether or not the block was fetched there: where
    it was not, the block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1024 := Rect.unit (s := S1024) ![0] S1024.size inb_S1024_S1024_0
abbrev r2_3 : Rect S512x1024 := Rect.unit (s := S512x1024) ![0, 0] S512x1024.size inb_S512x1024_S512x1024_0_0

/-- The output buffer after the body: its single whole-buffer store of the projection of the three input blocks. -/
def out2_3 (x0 : Vec F S512x1024 .bf16) (x1 : Vec F S1024x1024 .bf16) (x2 : Vec F S1024 .f32) : Vec F S512x1024 .f32 :=
  View.canon [⟨r2_3, k2_pay1 (View.ld x0 r2_0) (View.ld x1 r2_1) (View.ld x2 r2_2)⟩]

/-- That one store covers the buffer. -/
theorem cover2_3 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

set_option maxHeartbeats 1000000 in
/-- The body, on whole staging memrefs holding the input blocks `x0 x1 x2` and any output contents, runs to the
    continuation with the inputs as they were and the output at `out2_3 x0 x1 x2`. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1024 .f32) (harg3 : arg3.IsWhole) (arg4 : Memref sig .tc .vmem S512x1024 .f32) (harg4 : arg4.IsWhole)
    (x0 : Vec F S512x1024 .bf16) (x1 : Vec F S1024x1024 .bf16) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 0 on core `c`: the arrays as the region finds them; after the body each input buffer
    still at its block and the output at `out2_3` of the input blocks; the invariant is the scoped rest and the
    generator register, untouched; nothing is owed; every array is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Rg

end
-- ==== Proof.KiRun.lean ====
/-
  The whole program as a run. Between @main's six items — host operations, the projection region, the attention
  region, one host conversion, the output-projection region, the final reshape — every unscoped buffer of a core holds
  known contents: the launch memory, then each host stretch applied to what came before, then each region's output
  array replaced by what that region's write-backs leave and everything else untouched. The three regions are entered
  and left at these contents, and the run ends with the result buffer at the last of them and the argument arrays as
  launched.
-/
import proofs.«158308_j21560735826201_2_alg».proof.Proof.KiRegion0
import proofs.«158308_j21560735826201_2_alg».proof.Proof.KiRegion1
import proofs.«158308_j21560735826201_2_alg».proof.Proof.KiRegion2
import proofs.«158308_j21560735826201_2_alg».proof.Proof.Gen.KernelIdeal.Regions

set_option maxRecDepth 16384

noncomputable section

namespace Cert.KernelIdeal.Rg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 (c : Dev nD) : Valuation τ sig (Elt F) := fun b => m (c, b)
/-- After the first host stretch (the projection region's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the projection region: its output array at what the write-backs leave. -/
def W2 (c : Dev nD) : Valuation τ sig (Elt F) :=
  Function.update (W1 m c) (Proc.devRef .tc main_v9) ((dat0 (V1 m) c).arrAt 3 cfg0.N)
abbrev V2 : (c : Dev nD) → (b : Ref sig .tc) → Buf (Elt F) ((c : Thread nD τ).loc b) := fun c b => W2 m c b
/-- After the attention region. -/
def W3 (c : Dev nD) : Valuation τ sig (Elt F) :=
  Function.update (W2 m c) (Proc.devRef .tc main_v10) ((dat1 (V2 m) c).arrAt 3 cfg1.N)
/-- After the host conversion of the output weight (the output projection's entry). -/
abbrev W4 (c : Dev nD) : Valuation τ sig (Elt F) := StableHlo.after hostOps2 (W3 m c)
abbrev V4 : (c : Dev nD) → (b : Ref sig .tc) → Buf (Elt F) ((c : Thread nD τ).loc b) := fun c b => W4 m c b
/-- After the output projection. -/
def W5 (c : Dev nD) : Valuation τ sig (Elt F) :=
  Function.update (W4 m c) (Proc.devRef .tc main_v12) ((dat2 (V4 m) c).arrAt 3 cfg2.N)
abbrev V5 : (c : Dev nD) → (b : Ref sig .tc) → Buf (Elt F) ((c : Thread nD τ).loc b) := fun c b => W5 m c b
abbrev V3 : (c : Dev nD) → (b : Ref sig .tc) → Buf (Elt F) ((c : Thread nD τ).loc b) := fun c b => W3 m c b
/-- After the final reshape. -/
abbrev W6 (c : Dev nD) : Valuation τ sig (Elt F) := StableHlo.after hostOps3 (W5 m c)

theorem W2_same (c : Dev nD) : W2 m c (Proc.devRef .tc main_v9) = (dat0 (V1 m) c).arrAt 3 cfg0.N := by
  unfold W2; exact Function.update_self ..
theorem W2_of (c : Dev nD) (r : Ref sig .tc) (h : r ≠ main_v9) : W2 m c (Proc.devRef .tc r) = W1 m c (Proc.devRef .tc r) := by
  unfold W2; exact Function.update_of_ne (StableHlo.devRef_ne_of_ne h) ..
theorem W3_same (c : Dev nD) : W3 m c (Proc.devRef .tc main_v10) = (dat1 (V2 m) c).arrAt 3 cfg1.N := by
  unfold W3; exact Function.update_self ..
theorem W3_of (c : Dev nD) (r : Ref sig .tc) (h : r ≠ main_v10) : W3 m c (Proc.devRef .tc r) = W2 m c (Proc.devRef .tc r) := by
  unfold W3; exact Function.update_of_ne (StableHlo.devRef_ne_of_ne h) ..
theorem W5_same (c : Dev nD) : W5 m c (Proc.devRef .tc main_v12) = (dat2 (V4 m) c).arrAt 3 cfg2.N := by
  unfold W5; exact Function.update_self ..
theorem W5_of (c : Dev nD) (r : Ref sig .tc) (h : r ≠ main_v12) : W5 m c (Proc.devRef .tc r) = W4 m c (Proc.devRef .tc r) := by
  unfold W5; exact Function.update_of_ne (StableHlo.devRef_ne_of_ne h) ..
theorem W1_of (c : Dev nD) (r : Ref sig .tc) (h : r ∉ hostOps0_W) : W1 m c (Proc.devRef .tc r) = W0 m c (Proc.devRef .tc r) :=
  StableHlo.after_of_writes_sub hostOps0 _ hostOps0_writes h
theorem W4_of (c : Dev nD) (r : Ref sig .tc) (h : r ∉ hostOps2_W) : W4 m c (Proc.devRef .tc r) = W3 m c (Proc.devRef .tc r) :=
  StableHlo.after_of_writes_sub hostOps2 _ hostOps2_writes h
theorem W6_of (c : Dev nD) (r : Ref sig .tc) (h : r ∉ hostOps3_W) : W6 m c (Proc.devRef .tc r) = W5 m c (Proc.devRef .tc r) :=
  StableHlo.after_of_writes_sub hostOps3 _ hostOps3_writes h

/-- A buffer no host stretch writes and no region outputs into ends as launched. -/
theorem W6_kept (c : Dev nD) (r : Ref sig .tc) (h0 : r ∉ hostOps0_W) (h9 : r ≠ main_v9) (h10 : r ≠ main_v10)
    (h2 : r ∉ hostOps2_W) (h12 : r ≠ main_v12) (h3 : r ∉ hostOps3_W) :
    W6 m c (Proc.devRef .tc r) = m ((c : Thread nD τ).loc r) :=
  (W6_of m c r h3).trans <| (W5_of m c r h12).trans <| (W4_of m c r h2).trans <| (W3_of m c r h10).trans <|
    (W2_of m c r h9).trans <| (W1_of m c r h0).trans rfl

/-! ## Each region's arrays at its exit -/

theorem hF0 (c : Dev nD) : ∀ w : Fin cfg0.W, (dat0 (V1 m) c).arrAt w cfg0.N = V2 m c (Pipeline.arrRef spec0 w)
  | ⟨0, _⟩ => (((dat0 (V1 m) c).arrAt_in 0 rfl _).trans (A_eq0 (V1 m) c 0)).trans (W2_of m c _ (by decide)).symm
  | ⟨1, _⟩ => (((dat0 (V1 m) c).arrAt_in 1 rfl _).trans (A_eq0 (V1 m) c 1)).trans (W2_of m c _ (by decide)).symm
  | ⟨2, _⟩ => (((dat0 (V1 m) c).arrAt_in 2 rfl _).trans (A_eq0 (V1 m) c 2)).trans (W2_of m c _ (by decide)).symm
  | ⟨3, _⟩ => (W2_same m c).symm
theorem hrest0 (c : Dev nD) : ∀ b, b ∉ Finset.univ.image (Pipeline.arrRef spec0) → V2 m c b = V1 m c b :=
  fun b hb => W2_of m c b fun e => hb (Finset.mem_image.mpr ⟨3, Finset.mem_univ _, e.symm⟩)
theorem hF2 (c : Dev nD) : ∀ w : Fin cfg2.W, (dat2 (V4 m) c).arrAt w cfg2.N = V5 m c (Pipeline.arrRef spec2 w)
  | ⟨0, _⟩ => (((dat2 (V4 m) c).arrAt_in 0 rfl _).trans (A_eq2 (V4 m) c 0)).trans (W5_of m c _ (by decide)).symm
  | ⟨1, _⟩ => (((dat2 (V4 m) c).arrAt_in 1 rfl _).trans (A_eq2 (V4 m) c 1)).trans (W5_of m c _ (by decide)).symm
  | ⟨2, _⟩ => (((dat2 (V4 m) c).arrAt_in 2 rfl _).trans (A_eq2 (V4 m) c 2)).trans (W5_of m c _ (by decide)).symm
  | ⟨3, _⟩ => (W5_same m c).symm
theorem hrest2 (c : Dev nD) : ∀ b, b ∉ Finset.univ.image (Pipeline.arrRef spec2) → V5 m c b = V4 m c b :=
  fun b hb => W5_of m c b fun e => hb (Finset.mem_image.mpr ⟨3, Finset.mem_univ _, e.symm⟩)

/-! ## The proof data family and the thread state -/

/-- No pipeline has a prefetched table. -/
abbrev padm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) padm p) c
  | ⟨0, _⟩ => fun c => dat0 (V1 m) c
  | ⟨1, _⟩ => fun c => dat1 (V2 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered with every unscoped buffer at the boundary contents before it and left
    with them at the contents after it. Its arrays are split out of the unscoped buffers on entry and put back, at
    what the write-backs leave, on exit; the generator register goes into the pipeline's invariant and comes back;
    nothing is owed; the kernel has no semaphore of its own. -/
def reg0 : Pipeline.RegionSeg (pcfgs (F := F)) padm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the boundary contents before it and left
    with them at the contents after it. Its arrays are split out of the unscoped buffers on entry and put back, at
    what the write-backs leave, on exit; the generator register goes into the pipeline's invariant and comes back;
    nothing is owed; the kernel has no semaphore of its own. -/
def reg2 : Pipeline.RegionSeg (pcfgs (F := F)) padm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) padm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The two distinct buffers behind the attention region's four windows, each held whole, make the windows' arrays at
    entry: the projection output's points-to is split in three, one part per input window. -/
theorem arrays1_of_bufs (c : Dev nD) :
    (Pipeline.arrBufs (Ix := Unit) (Name := ℕ) (U := UR sig nD τ) (Lvl := ℕ) spec1 c (V2 m c) : sProp 𝕄)
      ⊢ (pdats m 1 c).arrays fun w => (pdats m 1 c).arrAt w 0 := by
  have hA : (pdats m 1 c).arrays (fun w => (pdats m 1 c).arrAt w 0)
      = bigSep Finset.univ fun w : Fin 4 => (((c.tc : Thread nD τ).loc (Pipeline.arrRef spec1 w)) ↦{(pdats m 1 c).share w} (pdats m 1 c).arrAt w 0 : sProp 𝕄) := by
    unfold Pipeline.Dat.arrays
    exact bigSep_congr fun w _ => by
      have hs : ((Pipeline.pin (pcfgs (F := F)) padm 1).win w).arr.view.set = Finset.univ := (arr_whole1 w).set_eq_univ
      rw [hs]
      rfl
  unfold Pipeline.arrBufs
  rw [hA, show Finset.univ.image (Pipeline.arrRef spec1) = {main_v9, main_v10} from by decide,
    bigSep_insert (by decide), bigSep_singleton, bigSep_W1]
  show iprop(((c.tc : Thread nD τ).loc main_v9 ↦{fullShare} V2 m c main_v9) ∗ ((c.tc : Thread nD τ).loc main_v10 ↦{fullShare} V2 m c main_v10)) ⊢ iprop(((c.tc : Thread nD τ).loc main_v9 ↦{fullShare.left} V2 m c main_v9)
      ∗ ((c.tc : Thread nD τ).loc main_v9 ↦{fullShare.right.left} V2 m c main_v9)
      ∗ ((c.tc : Thread nD τ).loc main_v9 ↦{fullShare.right.right} V2 m c main_v9)
      ∗ ((c.tc : Thread nD τ).loc main_v10 ↦{fullShare} V2 m c main_v10))
  iintro ⟨H9, H10⟩
  ihave H := (pointsTo_share (PosShare.mem_left_op_right fullShare)).1 $$ H9
  icases H with ⟨Ha, Hb⟩
  ihave H' := (pointsTo_share (PosShare.mem_left_op_right fullShare.right)).1 $$ Hb
  icases H' with ⟨Hb, Hc⟩
  isplitl [Ha]; · iexact Ha
  isplitl [Hb]; · iexact Hb
  isplitl [Hc]; · iexact Hc
  iexact H10

set_option backward.isDefEq.respectTransparency.types false in
/-- Conversely, at the region's exit: the three input windows still hold the projection output's contents, a third each,
    so their parts join to that buffer held whole; the output window's array holds what the write-backs left. -/
theorem bufs_of_arrays1 (c : Dev nD) :
    ((pdats m 1 c).arrays fun w => (pdats m 1 c).arrAt w cfg1.N)
      ⊢ (Pipeline.arrBufs (Ix := Unit) (Name := ℕ) (U := UR sig nD τ) (Lvl := ℕ) spec1 c (V3 m c) : sProp 𝕄) := by
  have hA : (pdats m 1 c).arrays (fun w => (pdats m 1 c).arrAt w cfg1.N)
      = bigSep Finset.univ fun w : Fin 4 => (((c.tc : Thread nD τ).loc (Pipeline.arrRef spec1 w)) ↦{(pdats m 1 c).share w} (pdats m 1 c).arrAt w cfg1.N : sProp 𝕄) := by
    unfold Pipeline.Dat.arrays
    exact bigSep_congr fun w _ => by
      have hs : ((Pipeline.pin (pcfgs (F := F)) padm 1).win w).arr.view.set = Finset.univ := (arr_whole1 w).set_eq_univ
      rw [hs]
      rfl
  have h0 : (dat1 (V2 m) c).arrAt 0 cfg1.N = V3 m c main_v9 :=
    (((dat1 (V2 m) c).arrAt_in 0 rfl _).trans (A_eq1 (V2 m) c 0)).trans (W3_of m c main_v9 (by decide)).symm
  have h1 : (dat1 (V2 m) c).arrAt 1 cfg1.N = V3 m c main_v9 :=
    (((dat1 (V2 m) c).arrAt_in 1 rfl _).trans (A_eq1 (V2 m) c 1)).trans (W3_of m c main_v9 (by decide)).symm
  have h2 : (dat1 (V2 m) c).arrAt 2 cfg1.N = V3 m c main_v9 :=
    (((dat1 (V2 m) c).arrAt_in 2 rfl _).trans (A_eq1 (V2 m) c 2)).trans (W3_of m c main_v9 (by decide)).symm
  have h3 : (dat1 (V2 m) c).arrAt 3 cfg1.N = V3 m c main_v10 := (W3_same m c).symm
  unfold Pipeline.arrBufs
  rw [hA, show Finset.univ.image (Pipeline.arrRef spec1) = {main_v9, main_v10} from by decide,
    bigSep_insert (by decide), bigSep_singleton, bigSep_W1]
  show iprop(((c.tc : Thread nD τ).loc main_v9 ↦{fullShare.left} (dat1 (V2 m) c).arrAt 0 cfg1.N)
      ∗ ((c.tc : Thread nD τ).loc main_v9 ↦{fullShare.right.left} (dat1 (V2 m) c).arrAt 1 cfg1.N)
      ∗ ((c.tc : Thread nD τ).loc main_v9 ↦{fullShare.right.right} (dat1 (V2 m) c).arrAt 2 cfg1.N)
      ∗ ((c.tc : Thread nD τ).loc main_v10 ↦{fullShare} (dat1 (V2 m) c).arrAt 3 cfg1.N))
    ⊢ iprop(((c.tc : Thread nD τ).loc main_v9 ↦{fullShare} V3 m c main_v9) ∗ ((c.tc : Thread nD τ).loc main_v10 ↦{fullShare} V3 m c main_v10))
  rw [h0, h1, h2, h3]
  iintro ⟨Ha, Hb, Hc, H10⟩
  isplitl [Ha Hb Hc]
  · iapply (pointsTo_share (PosShare.mem_left_op_right fullShare)).2
    isplitl [Ha]; · iexact Ha
    iapply (pointsTo_share (PosShare.mem_left_op_right fullShare.right)).2
    isplitl [Hb]; · iexact Hb
    iexact Hc
  iexact H10

set_option backward.isDefEq.respectTransparency.types false in
/-- The attention region. Its three input windows read ONE array (the projection's output), so on entry that array's
    whole points-to is split three ways among them and on exit the three parts are joined again; the output window's
    array is held whole. -/
def reg1 : Pipeline.RegionSeg (pcfgs (F := F)) padm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsp : (unscopedBufs c (V2 m c) : sProp 𝕄)
        = iprop(Pipeline.arrBufs spec1 c (V2 m c) ∗ Pipeline.unscopedRest spec1 c (V2 m c)) :=
      Pipeline.unscopedBufs_split₀ cfgs 1 winFacts₀1.arr_unscoped c (V2 m c)
    rw [Pipeline.unscopedBufs_held] at hsp
    rw [hsp]
    iintro ⟨⟨⟨Hab, Hrest⟩, Hp, HO⟩, -, -⟩
    imodintro
    isplitl [Hab]; · iapply (arrays1_of_bufs m c); iexact Hab
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsp : (unscopedBufs c (V3 m c) : sProp 𝕄)
        = iprop(Pipeline.arrBufs spec1 c (V3 m c) ∗ Pipeline.unscopedRest spec1 c (V3 m c)) :=
      Pipeline.unscopedBufs_split₀ cfgs 1 winFacts₀1.arr_unscoped c (V3 m c)
    rw [Pipeline.unscopedBufs_held] at hsp
    have hrest : (Pipeline.unscopedRest spec1 c (V3 m c) : sProp 𝕄) = Pipeline.unscopedRest spec1 c (V2 m c) := by
      unfold Pipeline.unscopedRest
      exact bigSep_congr fun b hb => by
        rw [show V3 m c b = V2 m c b from W3_of m c b fun e =>
          (Finset.mem_sdiff.mp hb).2 (Finset.mem_image.mpr ⟨3, Finset.mem_univ _, e.symm⟩)]
    rw [hsp, hrest]
    iintro ⟨Ha, HO, HY, Hrest⟩
    imodintro
    isplitl [Ha Hrest]
    · isplitl [Ha]; · iapply (bufs_of_arrays1 m c); iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) padm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m),
    .host (hseg hostOps3 hostOps3_sub hostOps3_fresh (W5 m)) ]
theorem main_run (c : Dev nD) : main (F := F) c = Pipeline.Seg.run (segs m) := (main_chain c).trans (by chain_rfl)

set_option backward.isDefEq.respectTransparency.types false in
/-- THE RUN: from any memory with zero counters every weakly fair execution of @main terminates without a fault, the
    result buffer ends at the last boundary's contents and every argument array as launched. -/
theorem run_main : θ_run defs (onTc (τ := τ) (main (F := F))) ⟨m, fun _ => 0, ρ⟩ (fun r => ∀ c : Dev nD,
      r.2.mem ((c.tc : Thread nD τ).loc main_v13) = W6 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) padm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨h c _ (mem_uc main_v13 (by decide)),
       (h c _ (mem_uc main_arg0 (by decide))).trans (W6_kept m c main_arg0 (by decide) (by decide) (by decide) (by decide) (by decide) (by decide)),
       (h c _ (mem_uc main_arg1 (by decide))).trans (W6_kept m c main_arg1 (by decide) (by decide) (by decide) (by decide) (by decide) (by decide)),
       (h c _ (mem_uc main_arg2 (by decide))).trans (W6_kept m c main_arg2 (by decide) (by decide) (by decide) (by decide) (by decide) (by decide)),
       (h c _ (mem_uc main_arg3 (by decide))).trans (W6_kept m c main_arg3 (by decide) (by decide) (by decide) (by decide) (by decide) (by decide)),
       (h c _ (mem_uc main_arg4 (by decide))).trans (W6_kept m c main_arg4 (by decide) (by decide) (by decide) (by decide) (by decide) (by decide)),
       (h c _ (mem_uc main_arg5 (by decide))).trans (W6_kept m c main_arg5 (by decide) (by decide) (by decide) (by decide) (by decide) (by decide)),
       (h c _ (mem_uc main_arg6 (by decide))).trans (W6_kept m c main_arg6 (by decide) (by decide) (by decide) (by decide) (by decide) (by decide)),
       (h c _ (mem_uc main_arg7 (by decide))).trans (W6_kept m c main_arg7 (by decide) (by decide) (by decide) (by decide) (by decide) (by decide)),
       (h c _ (mem_uc main_arg8 (by decide))).trans (W6_kept m c main_arg8 (by decide) (by decide) (by decide) (by decide) (by decide) (by decide))⟩)

end Cert.KernelIdeal.Rg

end
-- ==== Proof.KvSpec.lean ====
/-
  The mathematics both programs share, stated on the extended reals with plain indices.

  * The constants: the word 0x3E000000 is 1/8, the word 0x42800000 is 64 whose square root is 8, so the reference's
    division by sqrt 64 is multiplication by 1/8; the word 0xFF800000 is -∞, the bottom element.
  * The scale law: multiplying every weight and the bias by 1/8 before a projection is multiplying the projection by
    1/8 afterwards. A nonnegative real constant distributes over sums of extended reals, so no finiteness is needed.
  * One attention row: the scores of a query against 2048 keys over the 64 head columns, the largest score, the
    exponentials of the differences, their sum, and the weighted sum of one value column.
-/
import Idealize.ShloMosaic.PureOps.Ideal
import Idealize.ShloMosaic.PureOps.Ideal.Laws
import Idealize.ShloMosaic.Lib.ValueIdx

noncomputable section

namespace Cert.Attn

open Idealize.ShloMosaic

/-- The word of 0.125 denotes the real 1/8. -/
theorem ofBits_eighth : Ideal.ofBits .f32 0x3E000000#32 = ((1 / 8 : ℝ) : EReal) := by
  simp [Ideal.ofBits, Ideal.ieee, -EReal.coe_mul]; norm_num

/-- The word of 64.0 denotes the real 64. -/
theorem ofBits_64 : Ideal.ofBits .f32 0x42800000#32 = ((64 : ℝ) : EReal) := by
  simp [Ideal.ofBits, Ideal.ieee, -EReal.coe_mul]; norm_num

/-- The word 0xFF800000 denotes -∞. -/
theorem ofBits_neg_inf : Ideal.ofBits .f32 0xFF800000#32 = ⊥ := by
  simp [Ideal.ofBits, Ideal.ieee]

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- Dividing by the square root of the word 64.0 is multiplying by 1/8, on every extended real. -/
theorem div_sqrt64 (x : EReal) :
    Ideal.div x (Ideal.sqrt (Ideal.ofBits .f32 0x42800000#32)) = x * ((1 / 8 : ℝ) : EReal) := by
  rw [ofBits_64, sqrt_64, Ideal.div_coe (by norm_num)]

theorem eighth_nonneg : (0 : EReal) ≤ ((1 / 8 : ℝ) : EReal) := EReal.coe_nonneg.mpr (by norm_num)

/-- A nonnegative real constant moves out of a finite sum of extended reals. -/
theorem sum_mul_const {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- THE SCALE LAW: a projection with every weight and the bias multiplied by 1/8 is 1/8 of the projection. -/
theorem scale_law {n : ℕ} (x w : Fin n → EReal) (b : EReal) :
    (∑ d, x d * (w d * ((1 / 8 : ℝ) : EReal))) + b * ((1 / 8 : ℝ) : EReal)
      = ((∑ d, x d * w d) + b) * ((1 / 8 : ℝ) : EReal) := by
  rw [EReal.right_distrib_of_nonneg_of_ne_top eighth_nonneg (EReal.coe_ne_top _), sum_mul_const _ _ _ (by norm_num)]
  congr 1
  exact Finset.sum_congr rfl fun d _ => (mul_assoc _ _ _).symm

/-- ONE ATTENTION ROW: the query `Q` over the 64 head columns, the 2048 keys `K`, one column `Vc` of the values. -/
def attn (Q : Fin 64 → EReal) (K : Fin 2048 → Fin 64 → EReal) (Vc : Fin 2048 → EReal) : EReal :=
  ∑ k : Fin 2048,
    Ideal.div
        (Ideal.exp ((∑ j : Fin 64, Q j * K k j) - (Finset.univ : Finset (Fin 2048)).fold max ⊥ fun k' => ∑ j : Fin 64, Q j * K k' j))
        (∑ k'' : Fin 2048,
          Ideal.exp ((∑ j : Fin 64, Q j * K k'' j) - (Finset.univ : Finset (Fin 2048)).fold max ⊥ fun k' => ∑ j : Fin 64, Q j * K k' j))
      * Vc k

end Cert.Attn

end
-- ==== Proof.KvResult.lean ====
/-
  The result both programs compute, as one function of the nine argument arrays, on the extended reals.

  A token is a pair (batch entry, position), numbered `t = 2048 · b + s`. `proj` is a linear layer at one token and one
  output column. The attention output at token `t` and column `e` is the attention row of: the query projection of `t`
  scaled by 1/8 over the 64 columns of `e`'s head, the key projections of the 2048 tokens of `t`'s batch entry over the
  same columns, and the value projections of those tokens in column `e`. The result at `(b, s, e)` is the output
  projection of the attention outputs of token `2048 · b + s`.
-/
import proofs.«158308_j21560735826201_2_alg».proof.Proof.KvSpec

noncomputable section

namespace Cert.Attn

open Idealize.ShloMosaic Idealize.ShloMosaic.ValueIdx

abbrev TX := (⟨3, ![2, 2048, 1024]⟩ : Shape).Idx → EReal
abbrev TW := (⟨2, ![1024, 1024]⟩ : Shape).Idx → EReal
abbrev TB := (⟨1, ![1024]⟩ : Shape).Idx → EReal

/-- The constant 1/8. -/
def c8 : EReal := ((1 / 8 : ℝ) : EReal)

/-- Token `t`'s activations: batch entry `t / 2048`, position `t % 2048`. -/
def tok (x : TX) (t : Fin 4096) (d : Fin 1024) : EReal :=
  x (ix3 (⟨t.val / 2048, by have := t.isLt; omega⟩ : Fin 2) (⟨t.val % 2048, Nat.mod_lt _ (by norm_num)⟩ : Fin 2048) d)

/-- A linear layer at token `t`, output column `e`. -/
def proj (x : TX) (W : TW) (b : TB) (t : Fin 4096) (e : Fin 1024) : EReal :=
  (∑ d : Fin 1024, tok x t d * W (ix2 e d)) + b (ix1 e)

/-- The attention output at token `t`, column `e`. -/
def att (x : TX) (Wq : TW) (bq : TB) (Wk : TW) (bk : TB) (Wv : TW) (bv : TB) (t : Fin 4096) (e : Fin 1024) : EReal :=
  attn
    (fun j => proj x Wq bq t (⟨e.val / 64 * 64 + j.val, by have := e.isLt; have := j.isLt; omega⟩ : Fin 1024) * c8)
    (fun k j => proj x Wk bk (⟨t.val / 2048 * 2048 + k.val, by have := t.isLt; have := k.isLt; omega⟩ : Fin 4096)
      (⟨e.val / 64 * 64 + j.val, by have := e.isLt; have := j.isLt; omega⟩ : Fin 1024))
    (fun k => proj x Wv bv (⟨t.val / 2048 * 2048 + k.val, by have := t.isLt; have := k.isLt; omega⟩ : Fin 4096) e)

/-- THE RESULT at `(b, s, e)`. -/
def result (x : TX) (Wq : TW) (bq : TB) (Wk : TW) (bk : TB) (Wv : TW) (bv : TB) (Wo : TW) (bo : TB) : TX := fun i =>
  (∑ d : Fin 1024,
      att x Wq bq Wk bk Wv bv
          (⟨(i 0).val * 2048 + (i 1).val, by have h0 : (i 0).val < 2 := (i 0).isLt; have h1 : (i 1).val < 2048 := (i 1).isLt; omega⟩ : Fin 4096) d
        * Wo (ix2 (⟨(i 2).val, (i 2).isLt⟩ : Fin 1024) d))
    + bo (ix1 (⟨(i 2).val, (i 2).isLt⟩ : Fin 1024))

end Cert.Attn

end
-- ==== Proof.KvHost.lean ====
/-
  What the host operations around the three regions compute, read at one index.

  Before the projection: the activations flattened to 4096 token rows (row `t` is batch entry `t / 2048`, position
  `t % 2048`); the query weight and bias multiplied by the constant 1/8 and stacked on top of the key and value weights
  and biases (rows 0–1023 query, 1024–2047 key, 2048–3071 value). Before the output projection: the output weight, as it
  is. After it: the 4096 token rows folded back into (batch entry, position). Conversions to bf16 change nothing on the
  extended reals.
-/
import proofs.«158308_j21560735826201_2_alg».proof.Proof.KiRun
import proofs.«158308_j21560735826201_2_alg».proof.Proof.KvResult
import Idealize.ShloMosaic.Lib.StableHlo.Run
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen Cert.KernelIdeal.Rg

variable (m : (ℓ : Loc nD τ sig) → Buf (Elt Ideal) ℓ)

/-! ## The buffers the host operations write -/

theorem v1_eq (c : Dev nD) : (W1 m c (Proc.devRef .tc main_v1) : S4096x1024.Idx → EReal)
    = truncf (F := Ideal) .bf16 (shapeCast S4096x1024 (m ((c : Thread nD τ).loc main_arg0) : FVec Ideal S2x2048x1024 .f32) shapeCasts_S2x2048x1024_S4096x1024) bitsLt_bf16_f32 := by
  show StableHlo.after hostOps0 (W0 m c) (Proc.devRef .tc main_v1) = _
  after_results
  rfl
theorem v8_eq (c : Dev nD) : (W1 m c (Proc.devRef .tc main_v8) : S3072x1024.Idx → EReal)
    = truncf .bf16 (concatenate S3072x1024 0
        [⟨S1024x1024, mulf (m ((c : Thread nD τ).loc main_arg1) : S1024x1024.Idx → EReal)
            (broadcastInDim S1024x1024 ![] bcast_S_S1024x1024 (constant (F := Ideal) S_ .f32 0x3E000000#32))⟩,
          ⟨S1024x1024, (m ((c : Thread nD τ).loc main_arg3) : S1024x1024.Idx → EReal)⟩,
          ⟨S1024x1024, (m ((c : Thread nD τ).loc main_arg5) : S1024x1024.Idx → EReal)⟩]
        concatenates_S1024x1024_S1024x1024_S1024x1024_S3072x1024_d0) bitsLt_bf16_f32 := by
  show StableHlo.after hostOps0 (W0 m c) (Proc.devRef .tc main_v8) = _
  after_results
  rfl
theorem v7_eq (c : Dev nD) : (W1 m c (Proc.devRef .tc main_v7) : S3072.Idx → EReal)
    = concatenate S3072 0
        [⟨S1024, mulf (m ((c : Thread nD τ).loc main_arg2) : S1024.Idx → EReal)
            (broadcastInDim S1024 ![] bcast_S_S1024 (constant (F := Ideal) S_ .f32 0x3E000000#32))⟩,
          ⟨S1024, (m ((c : Thread nD τ).loc main_arg4) : S1024.Idx → EReal)⟩,
          ⟨S1024, (m ((c : Thread nD τ).loc main_arg6) : S1024.Idx → EReal)⟩]
        concatenates_S1024_S1024_S1024_S3072_d0 := by
  show StableHlo.after hostOps0 (W0 m c) (Proc.devRef .tc main_v7) = _
  after_results
  rfl
theorem v11_eq (c : Dev nD) : (W4 m c (Proc.devRef .tc main_v11) : S1024x1024.Idx → EReal)
    = truncf (F := Ideal) .bf16 (W3 m c (Proc.devRef .tc main_arg7) : FVec Ideal S1024x1024 .f32) bitsLt_bf16_f32 := by
  show StableHlo.after hostOps2 (W3 m c) (Proc.devRef .tc main_v11) = _
  after_results
theorem v13_eq (c : Dev nD) : (W6 m c (Proc.devRef .tc main_v13) : S2x2048x1024.Idx → EReal)
    = shapeCast S2x2048x1024 (W5 m c (Proc.devRef .tc main_v12) : S4096x1024.Idx → EReal) shapeCasts_S4096x1024_S2x2048x1024 := by
  show StableHlo.after hostOps3 (W5 m c) (Proc.devRef .tc main_v13) = _
  after_results
  rfl

/-! ## Read at an index -/

/-- The flattened activations at token `t`. -/
theorem v1_apply (c : Dev nD) (t : Fin 4096) (d : Fin 1024) :
    (W1 m c (Proc.devRef .tc main_v1) : S4096x1024.Idx → EReal) (ix2 t d)
      = Cert.Attn.tok (m ((c : Thread nD τ).loc main_arg0) : S2x2048x1024.Idx → EReal) t d := by
  rw [v1_eq, truncf_apply]
  unfold Cert.Attn.tok
  exact shapeCast_apply _ shapeCasts_S2x2048x1024_S4096x1024 (ix2 t d) _ (by
    rewrite [Shape.rowMajor_val_three, Shape.rowMajor_val_two]
    have := t.isLt
    show (t.val / 2048 * 2048 + t.val % 2048) * 1024 + d.val = t.val * 1024 + d.val
    omega)

/-- The splat of the constant 1/8, at any index. -/
theorem eighth2_apply (i : S1024x1024.Idx) :
    broadcastInDim S1024x1024 ![] bcast_S_S1024x1024 (constant (F := Ideal) S_ .f32 0x3E000000#32) i = Cert.Attn.c8 := by
  rw [broadcastInDim_apply ![] bcast_S_S1024x1024 _ i ix0 (fun a => a.elim0), constant_apply, Cert.Attn.ofBits_eighth]
  rfl
theorem eighth1_apply (i : S1024.Idx) :
    broadcastInDim S1024 ![] bcast_S_S1024 (constant (F := Ideal) S_ .f32 0x3E000000#32) i = Cert.Attn.c8 := by
  rw [broadcastInDim_apply ![] bcast_S_S1024 _ i ix0 (fun a => a.elim0), constant_apply, Cert.Attn.ofBits_eighth]
  rfl

/-- The stacked weight in its query rows: the query weight times 1/8. -/
theorem v8_q (c : Dev nD) (e d : Fin 1024) (E : Fin 3072) (hE : E.val = e.val) :
    (W1 m c (Proc.devRef .tc main_v8) : S3072x1024.Idx → EReal) (ix2 E d)
      = (fun W : S1024x1024.Idx → EReal => W (ix2 e d) * Cert.Attn.c8) (m ((c : Thread nD τ).loc main_arg1)) := by
  rw [v8_eq, truncf_apply]
  refine (concatenate_apply_piece (t := S3072x1024) (0 : Fin 2) _ _ (ix2 E d) 0 ?_ S1024x1024 (mulf (m ((c : Thread nD τ).loc main_arg1) : FVec Ideal S1024x1024 .f32) (broadcastInDim S1024x1024 ![] bcast_S_S1024x1024 (constant (F := Ideal) S_ .f32 0x3E000000#32))) ?_ rfl 0 ?_ (ix2 e d) ?_ ?_).trans ?_
  · show (0 : ℕ) < 3; omega
  · rfl
  · rfl
  · intro b hb
    match b with
    | ⟨0, _⟩ => exact absurd rfl hb
    | ⟨1, _⟩ => rfl
  · show 0 + e.val = E.val; omega
  · rw [mulf_apply, eighth2_apply]
/-- In its key rows: the key weight. -/
theorem v8_k (c : Dev nD) (e d : Fin 1024) (E : Fin 3072) (hE : E.val = 1024 + e.val) :
    (W1 m c (Proc.devRef .tc main_v8) : S3072x1024.Idx → EReal) (ix2 E d)
      = (m ((c : Thread nD τ).loc main_arg3) : S1024x1024.Idx → EReal) (ix2 e d) := by
  rw [v8_eq, truncf_apply]
  refine (concatenate_apply_piece (t := S3072x1024) (0 : Fin 2) _ _ (ix2 E d) 1 ?_ S1024x1024 (m ((c : Thread nD τ).loc main_arg3) : FVec Ideal S1024x1024 .f32) ?_ rfl 1024 ?_ (ix2 e d) ?_ ?_).trans ?_
  · show (1 : ℕ) < 3; omega
  · rfl
  · rfl
  · intro b hb
    match b with
    | ⟨0, _⟩ => exact absurd rfl hb
    | ⟨1, _⟩ => rfl
  · show 1024 + e.val = E.val; omega
  · rfl
/-- In its value rows: the value weight. -/
theorem v8_v (c : Dev nD) (e d : Fin 1024) (E : Fin 3072) (hE : E.val = 2048 + e.val) :
    (W1 m c (Proc.devRef .tc main_v8) : S3072x1024.Idx → EReal) (ix2 E d)
      = (m ((c : Thread nD τ).loc main_arg5) : S1024x1024.Idx → EReal) (ix2 e d) := by
  rw [v8_eq, truncf_apply]
  refine (concatenate_apply_piece (t := S3072x1024) (0 : Fin 2) _ _ (ix2 E d) 2 ?_ S1024x1024 (m ((c : Thread nD τ).loc main_arg5) : FVec Ideal S1024x1024 .f32) ?_ rfl 2048 ?_ (ix2 e d) ?_ ?_).trans ?_
  · show (2 : ℕ) < 3; omega
  · rfl
  · rfl
  · intro b hb
    match b with
    | ⟨0, _⟩ => exact absurd rfl hb
    | ⟨1, _⟩ => rfl
  · show 2048 + e.val = E.val; omega
  · rfl

/-- The stacked bias likewise. -/
theorem v7_q (c : Dev nD) (e : Fin 1024) (E : Fin 3072) (hE : E.val = e.val) :
    (W1 m c (Proc.devRef .tc main_v7) : S3072.Idx → EReal) (ix1 E)
      = (fun b : S1024.Idx → EReal => b (ix1 e) * Cert.Attn.c8) (m ((c : Thread nD τ).loc main_arg2)) := by
  rw [v7_eq]
  refine (concatenate_apply_piece (t := S3072) (0 : Fin 1) _ _ (ix1 E) 0 ?_ S1024 (mulf (m ((c : Thread nD τ).loc main_arg2) : FVec Ideal S1024 .f32) (broadcastInDim S1024 ![] bcast_S_S1024 (constant (F := Ideal) S_ .f32 0x3E000000#32))) ?_ rfl 0 ?_ (ix1 e) ?_ ?_).trans ?_
  · show (0 : ℕ) < 3; omega
  · rfl
  · rfl
  · intro b hb
    match b with
    | ⟨0, _⟩ => exact absurd rfl hb
  · show 0 + e.val = E.val; omega
  · rw [mulf_apply, eighth1_apply]
theorem v7_k (c : Dev nD) (e : Fin 1024) (E : Fin 3072) (hE : E.val = 1024 + e.val) :
    (W1 m c (Proc.devRef .tc main_v7) : S3072.Idx → EReal) (ix1 E)
      = (m ((c : Thread nD τ).loc main_arg4) : S1024.Idx → EReal) (ix1 e) := by
  rw [v7_eq]
  refine (concatenate_apply_piece (t := S3072) (0 : Fin 1) _ _ (ix1 E) 1 ?_ S1024 (m ((c : Thread nD τ).loc main_arg4) : FVec Ideal S1024 .f32) ?_ rfl 1024 ?_ (ix1 e) ?_ ?_).trans ?_
  · show (1 : ℕ) < 3; omega
  · rfl
  · rfl
  · intro b hb
    match b with
    | ⟨0, _⟩ => exact absurd rfl hb
  · show 1024 + e.val = E.val; omega
  · rfl
theorem v7_v (c : Dev nD) (e : Fin 1024) (E : Fin 3072) (hE : E.val = 2048 + e.val) :
    (W1 m c (Proc.devRef .tc main_v7) : S3072.Idx → EReal) (ix1 E)
      = (m ((c : Thread nD τ).loc main_arg6) : S1024.Idx → EReal) (ix1 e) := by
  rw [v7_eq]
  refine (concatenate_apply_piece (t := S3072) (0 : Fin 1) _ _ (ix1 E) 2 ?_ S1024 (m ((c : Thread nD τ).loc main_arg6) : FVec Ideal S1024 .f32) ?_ rfl 2048 ?_ (ix1 e) ?_ ?_).trans ?_
  · show (2 : ℕ) < 3; omega
  · rfl
  · rfl
  · intro b hb
    match b with
    | ⟨0, _⟩ => exact absurd rfl hb
  · show 2048 + e.val = E.val; omega
  · rfl

/-- The output weight as the output projection finds it. -/
theorem v11_apply (c : Dev nD) (i : S1024x1024.Idx) :
    (W4 m c (Proc.devRef .tc main_v11) : S1024x1024.Idx → EReal) i = (m ((c : Thread nD τ).loc main_arg7) : S1024x1024.Idx → EReal) i := by
  rw [v11_eq, truncf_apply]
  exact congrFun ((W3_of m c main_arg7 (by decide)).trans ((W2_of m c main_arg7 (by decide)).trans ((W1_of m c main_arg7 (by decide)).trans rfl))) i

/-- The output bias as the output projection finds it. -/
theorem arg8_eq (c : Dev nD) : W4 m c (Proc.devRef .tc main_arg8) = m ((c : Thread nD τ).loc main_arg8) :=
  (W4_of m c main_arg8 (by decide)).trans ((W3_of m c main_arg8 (by decide)).trans ((W2_of m c main_arg8 (by decide)).trans
    ((W1_of m c main_arg8 (by decide)).trans rfl)))

/-- The result buffer at `(b, s, e)` is the output projection's array at token `2048 · b + s`, column `e`. -/
theorem v13_apply (c : Dev nD) (i : S2x2048x1024.Idx) :
    (W6 m c (Proc.devRef .tc main_v13) : S2x2048x1024.Idx → EReal) i
      = (W5 m c (Proc.devRef .tc main_v12) : S4096x1024.Idx → EReal)
          (ix2 (⟨(i 0).val * 2048 + (i 1).val, by have h0 : (i 0).val < 2 := (i 0).isLt; have h1 : (i 1).val < 2048 := (i 1).isLt; omega⟩ : Fin 4096)
            (⟨(i 2).val, (i 2).isLt⟩ : Fin 1024)) := by
  rw [v13_eq]
  exact shapeCast_apply _ shapeCasts_S4096x1024_S2x2048x1024 i _ (by
    rewrite [Shape.rowMajor_val_two, Shape.rowMajor_val_three]
    rfl)

end Cert.KernelIdeal.Val

end
-- ==== Proof.LibColumns.lean ====
/-
  Two layout operations read at an index, for the column forms that a row reduction kept as a column
  (`keepdims`) produces: a vector of `a` entries cast to an `[a, 1]` column, and an `[a, 1]` column broadcast along
  `b` lanes.  Both read the operand at the row's own entry.
-/
import Idealize.ShloMosaic.Lib.Pipeline.Value
import Idealize.ShloMosaic.Lib.ValueIdx

namespace Cert.Columns

open Idealize.ShloMosaic Idealize.ShloMosaic.ValueIdx

variable {α : Type}

/-- An `[a]` array cast to an `[a, 1]` column reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.KvOps.lean ====
/-
  The kernels' arithmetic read at one index, on the extended reals.

  * Each matrix product of a body, into a zero accumulator, is a plain sum over its shared axis.
  * The projection body at row `p`, column `q`: the row of activations against row `q` of the weight, plus entry `q` of
    the bias (the bias is a vector cast to one row and repeated down the rows; rounding to bf16 changes nothing here).
-/
import proofs.«158308_j21560735826201_2_alg».proof.Proof.Gen.KernelIdeal.Skeleton
import proofs.«158308_j21560735826201_2_alg».proof.Proof.LibColumns
import proofs.«158308_j21560735826201_2_alg».proof.Proof.KvSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.ValueIdx Idealize.SL.Sem
open Cert.KernelIdeal Cert.KernelIdeal.Gen

theorem mm_proj_l0 (i : S512x3072.Idx) (q : dot_S512x1024_S3072x1024_S512x3072_1_1_0_0_n_n.contr.Idx) :
    (dot_S512x1024_S3072x1024_S512x3072_1_1_0_0_n_n.lhsIdx i q 0).val = (i 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
theorem mm_proj_l1 (i : S512x3072.Idx) (q : dot_S512x1024_S3072x1024_S512x3072_1_1_0_0_n_n.contr.Idx) :
    (dot_S512x1024_S3072x1024_S512x3072_1_1_0_0_n_n.lhsIdx i q 1).val = (q ⟨0, by decide⟩).val :=
  dot_S512x1024_S3072x1024_S512x3072_1_1_0_0_n_n.lhsIdx_val_of_single rfl i q
theorem mm_proj_r0 (i : S512x3072.Idx) (q : dot_S512x1024_S3072x1024_S512x3072_1_1_0_0_n_n.contr.Idx) :
    (dot_S512x1024_S3072x1024_S512x3072_1_1_0_0_n_n.rhsIdx i q 0).val = (i 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
theorem mm_proj_r1 (i : S512x3072.Idx) (q : dot_S512x1024_S3072x1024_S512x3072_1_1_0_0_n_n.contr.Idx) :
    (dot_S512x1024_S3072x1024_S512x3072_1_1_0_0_n_n.rhsIdx i q 1).val = (q ⟨0, by decide⟩).val :=
  dot_S512x1024_S3072x1024_S512x3072_1_1_0_0_n_n.rhsIdx_val_of_single rfl i q
/-- The product `mm_proj` into zero, read at `(p, q)`: a sum over the shared axis of extent 1024. -/
theorem mm_proj (l : FVec Ideal S512x1024 .bf16) (r : FVec Ideal S3072x1024 .bf16) (p : Fin 512) (q : Fin 3072) :
    matmul dot_S512x1024_S3072x1024_S512x3072_1_1_0_0_n_n none l r (constant (F := Ideal) S512x3072 .f32 0x00000000#32) (ix2 p q)
      = ∑ k : Fin 1024, l (ix2 p k) * r (ix2 q k) := by
  simp only [matmul]
  rw [Ideal.matmul_constant_zero_apply, ← Equiv.sum_comp (ValueIdx.contrEquiv1 dot_S512x1024_S3072x1024_S512x3072_1_1_0_0_n_n 1024 rfl rfl).symm]
  refine Finset.sum_congr rfl fun k _ => ?_
  have hk := ValueIdx.contrEquiv1_symm_val dot_S512x1024_S3072x1024_S512x3072_1_1_0_0_n_n 1024 rfl rfl k
  have el : dot_S512x1024_S3072x1024_S512x3072_1_1_0_0_n_n.lhsIdx (ix2 p q) ((ValueIdx.contrEquiv1 dot_S512x1024_S3072x1024_S512x3072_1_1_0_0_n_n 1024 rfl rfl).symm k) = ix2 p k := funext fun a => Fin.ext (by
    match a with
    | ⟨0, _⟩ => exact mm_proj_l0 _ _
    | ⟨1, _⟩ => exact (mm_proj_l1 _ _).trans hk)
  have er : dot_S512x1024_S3072x1024_S512x3072_1_1_0_0_n_n.rhsIdx (ix2 p q) ((ValueIdx.contrEquiv1 dot_S512x1024_S3072x1024_S512x3072_1_1_0_0_n_n 1024 rfl rfl).symm k) = ix2 q k := funext fun a => Fin.ext (by
    match a with
    | ⟨0, _⟩ => exact mm_proj_r0 _ _
    | ⟨1, _⟩ => exact (mm_proj_r1 _ _).trans hk)
  rw [el, er]

theorem mm_out_l0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem mm_out_l1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem mm_out_r0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem mm_out_r1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q
/-- The product `mm_out` into zero, read at `(p, q)`: a sum over the shared axis of extent 1024. -/
theorem mm_out (l : FVec Ideal S512x1024 .bf16) (r : FVec Ideal S1024x1024 .bf16) (p : Fin 512) (q : Fin 1024) :
    matmul dot_S512x1024_S1024x1024_S512x1024_1_1_0_0_n_n none l r (constant (F := Ideal) S512x1024 .f32 0x00000000#32) (ix2 p q)
      = ∑ k : Fin 1024, l (ix2 p k) * r (ix2 q k) := by
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p q) ((ValueIdx.contrEquiv1 dot_S512x1024_S1024x1024_S512x1024_1_1_0_0_n_n 1024 rfl rfl).symm k) = ix2 p k := funext fun a => Fin.ext (by
    match a with
    | ⟨0, _⟩ => exact mm_out_l0 _ _
    | ⟨1, _⟩ => exact (mm_out_l1 _ _).trans hk)
  have er : dot_S512x1024_S1024x1024_S512x1024_1_1_0_0_n_n.rhsIdx (ix2 p q) ((ValueIdx.contrEquiv1 dot_S512x1024_S1024x1024_S512x1024_1_1_0_0_n_n 1024 rfl rfl).symm k) = ix2 q k := funext fun a => Fin.ext (by
    match a with
    | ⟨0, _⟩ => exact mm_out_r0 _ _
    | ⟨1, _⟩ => exact (mm_out_r1 _ _).trans hk)
  rw [el, er]

theorem mm_scores_l0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem mm_scores_l1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem mm_scores_r0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem mm_scores_r1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q
/-- The product `mm_scores` into zero, read at `(p, q)`: a sum over the shared axis of extent 64. -/
theorem mm_scores (l : FVec Ideal S512x64 .bf16) (r : FVec Ideal S2048x64 .bf16) (p : Fin 512) (q : Fin 2048) :
    matmul dot_S512x64_S2048x64_S512x2048_1_1_0_0_n_n none l r (constant (F := Ideal) S512x2048 .f32 0x00000000#32) (ix2 p q)
      = ∑ k : Fin 64, l (ix2 p k) * r (ix2 q k) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx (ix2 p q) ((ValueIdx.contrEquiv1 dot_S512x64_S2048x64_S512x2048_1_1_0_0_n_n 64 rfl rfl).symm k) = ix2 p k := funext fun a => Fin.ext (by
    match a with
    | ⟨0, _⟩ => exact mm_scores_l0 _ _
    | ⟨1, _⟩ => exact (mm_scores_l1 _ _).trans hk)
  have er : dot_S512x64_S2048x64_S512x2048_1_1_0_0_n_n.rhsIdx (ix2 p q) ((ValueIdx.contrEquiv1 dot_S512x64_S2048x64_S512x2048_1_1_0_0_n_n 64 rfl rfl).symm k) = ix2 q k := funext fun a => Fin.ext (by
    match a with
    | ⟨0, _⟩ => exact mm_scores_r0 _ _
    | ⟨1, _⟩ => exact (mm_scores_r1 _ _).trans hk)
  rw [el, er]

theorem mm_values_l0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem mm_values_l1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem mm_values_r0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem mm_values_r1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl
/-- The product `mm_values` into zero, read at `(p, q)`: a sum over the shared axis of extent 2048. -/
theorem mm_values (l : FVec Ideal S512x2048 .bf16) (r : FVec Ideal S2048x64 .bf16) (p : Fin 512) (q : Fin 64) :
    matmul dot_S512x2048_S2048x64_S512x64_1_0_0_1_n_n none l r (constant (F := Ideal) S512x64 .f32 0x00000000#32) (ix2 p q)
      = ∑ k : Fin 2048, l (ix2 p k) * r (ix2 k q) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 p q) ((ValueIdx.contrEquiv1 dot_S512x2048_S2048x64_S512x64_1_0_0_1_n_n 2048 rfl rfl).symm k) = ix2 p k := funext fun a => Fin.ext (by
    match a with
    | ⟨0, _⟩ => exact mm_values_l0 _ _
    | ⟨1, _⟩ => exact (mm_values_l1 _ _).trans hk)
  have er : dot_S512x2048_S2048x64_S512x64_1_0_0_1_n_n.rhsIdx (ix2 p q) ((ValueIdx.contrEquiv1 dot_S512x2048_S2048x64_S512x64_1_0_0_1_n_n 2048 rfl rfl).symm k) = ix2 k q := funext fun a => Fin.ext (by
    match a with
    | ⟨0, _⟩ => exact (mm_values_r0 _ _).trans hk
    | ⟨1, _⟩ => exact mm_values_r1 _ _)
  rw [el, er]

/-- The q/k/v projection body at `(p, q)`. -/
theorem pay0_apply (x0 : Vec Ideal S512x1024 .bf16) (x1 : Vec Ideal S3072x1024 .bf16) (x2 : Vec Ideal S3072 .f32)
    (p : Fin 512) (q : Fin 3072) :
    k0_pay1 (F := Ideal) x0 x1 x2 (ix2 p q) = (∑ k : Fin 1024, x0 (ix2 p k) * x1 (ix2 q k)) + x2 (ix1 q) := by
  unfold k0_pay1
  simp only [shapeCast_self]
  rw [truncf_apply, addf_apply, mm_proj, broadcastTo_1b_ab_apply, shapeCast_a_1a_apply]

/-- The output projection body at `(p, q)`. -/
theorem pay2_apply (x0 : Vec Ideal S512x1024 .bf16) (x1 : Vec Ideal S1024x1024 .bf16) (x2 : Vec Ideal S1024 .f32)
    (p : Fin 512) (q : Fin 1024) :
    k2_pay1 (F := Ideal) x0 x1 x2 (ix2 p q) = (∑ k : Fin 1024, x0 (ix2 p k) * x1 (ix2 q k)) + x2 (ix1 q) := by
  unfold k2_pay1
  simp only [shapeCast_self]
  rw [addf_apply, mm_out, broadcastTo_1b_ab_apply, shapeCast_a_1a_apply]

end Cert.KernelIdeal.Val

end
-- ==== Proof.KvFinal0.lean ====
/-
  What the projection region leaves in its output array, as one function of the arrays it reads.

  The output has 4096 rows and 3072 columns. Grid point `t` handles rows 512·t … 512·t + 511: its activation block is
  those rows of the activation array, its weight and bias blocks are the whole weight and the whole bias, and what it
  writes back is, at row `r` and column `e`, the row of activations against row `e` of the weight plus entry `e` of the
  bias. The eight row blocks tile the array, so the array ends holding that function everywhere.
-/
import proofs.«158308_j21560735826201_2_alg».proof.Proof.KiRun
import proofs.«158308_j21560735826201_2_alg».proof.Proof.KvOps

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Rg

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a; rfl

/-- A linear layer on whole arrays: row `i 0` of `X` against row `i 1` of `W`, plus entry `i 1` of `b`. -/
def lin {R N : ℕ} (X : (⟨2, ![R, 1024]⟩ : Shape).Idx → EReal) (W : (⟨2, ![N, 1024]⟩ : Shape).Idx → EReal)
    (b : (⟨1, ![N]⟩ : Shape).Idx → EReal) : (⟨2, ![R, N]⟩ : Shape).Idx → EReal :=
  fun i => (∑ k : Fin 1024, X (ix2 (⟨(i 0).val, (i 0).isLt⟩ : Fin R) k) * W (ix2 (⟨(i 1).val, (i 1).isLt⟩ : Fin N) k))
    + b (ix1 (⟨(i 1).val, (i 1).isLt⟩ : Fin N))

/-- The block indices of region 0's windows, decided over its eight grid points: the activations and the output move
    down one row block per point, the weight and the bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The activation block at point `t` is rows 512·t … of the activation array. -/
theorem iblk0_0_apply (c : Dev nD) (t : Fin cfg0.N) (p : Fin 512) (k : Fin 1024) (i : S4096x1024.Idx)
    (h0 : (i 0).val = t.val * 512 + p.val) (h1 : (i 1).val = k.val) :
    (iblk0 V c 0 t : Vec Ideal S512x1024 .bf16) (ix2 p k) = (V c main_v1 : S4096x1024.Idx → EReal) i := by
  obtain ⟨e0, e1, -⟩ := idx_facts0 t
  unfold iblk0
  rw [View.read_apply]
  show (V c main_v1 : S4096x1024.Idx → EReal) _ = _
  refine congrArg _ (funext fun a => Fin.ext ?_)
  match a with
  | ⟨0, _⟩ => show win0_0.index t (0 : Fin 2) * 512 + 1 * p.val = (i 0).val; rw [e0, h0]; omega
  | ⟨1, _⟩ => show win0_0.index t (1 : Fin 2) * 1024 + 1 * k.val = (i 1).val; rw [e1, h1]; omega

/-- The weight block at every point is the whole weight. -/
theorem iblk0_1_apply (c : Dev nD) (t : Fin cfg0.N) (q : Fin 3072) (k : Fin 1024) :
    (iblk0 V c 1 t : Vec Ideal S3072x1024 .bf16) (ix2 q k) = (V c main_v8 : S3072x1024.Idx → EReal) (ix2 q k) := by
  obtain ⟨-, -, e0, e1, -⟩ := idx_facts0 t
  unfold iblk0
  rw [View.read_apply]
  show (V c main_v8 : S3072x1024.Idx → EReal) _ = _
  refine congrArg _ (funext fun a => Fin.ext ?_)
  match a with
  | ⟨0, _⟩ => show win0_1.index t (0 : Fin 2) * 3072 + 1 * q.val = q.val; rw [e0]; omega
  | ⟨1, _⟩ => show win0_1.index t (1 : Fin 2) * 1024 + 1 * k.val = k.val; rw [e1]; omega

/-- The bias block at every point is the whole bias. -/
theorem iblk0_2_apply (c : Dev nD) (t : Fin cfg0.N) (q : Fin 3072) :
    (iblk0 V c 2 t : Vec Ideal S3072 .f32) (ix1 q) = (V c main_v7 : S3072.Idx → EReal) (ix1 q) := by
  obtain ⟨-, -, -, -, e0, -⟩ := idx_facts0 t
  unfold iblk0
  rw [View.read_apply]
  show (V c main_v7 : S3072.Idx → EReal) _ = _
  refine congrArg _ (funext fun a => Fin.ext ?_)
  match a with
  | ⟨0, _⟩ => show win0_2.index t (0 : Fin 1) * 3072 + 1 * q.val = q.val; rw [e0]; omega

/-- WHAT POINT `t` WRITES BACK is block `t` of the linear layer of the arrays as the region finds them. -/
theorem flushed0_eq (c : Dev nD) (t : Fin cfg0.N) :
    (dat0 V c).flushed 3 t = ((cfg0.win 3).blk t).view.read (Elt Ideal)
      (lin (V c main_v1 : S4096x1024.Idx → EReal) (V c main_v8 : S3072x1024.Idx → EReal) (V c main_v7 : S3072.Idx → EReal)) := by
  show (cfg0.win 3).cut (grid0.coords t) ((dat0 V c).after 3 t) = _
  rw [after0_3]
  unfold out0_3
  rw [View.canon_unit_zero hz2]
  simp only [View.ld_unit_zero (S := S512x1024) hz2, View.ld_unit_zero (S := S3072x1024) hz2, View.ld_unit_zero (S := S3072) hz1]
  obtain ⟨-, -, -, -, -, e0, e1⟩ := idx_facts0 t
  funext j
  obtain ⟨p, q, rfl⟩ : ∃ (p : Fin 512) (q : Fin 3072), j = ix2 p q := ⟨j 0, j 1, eq_ix2 j⟩
  show k0_pay1 (F := Ideal) (iblk0 V c 0 t) (iblk0 V c 1 t) (iblk0 V c 2 t) (ix2 p q)
    = lin (V c main_v1 : S4096x1024.Idx → EReal) (V c main_v8 : S3072x1024.Idx → EReal) (V c main_v7 : S3072.Idx → EReal)
        (((cfg0.win 3).blk t).view.emb (ix2 p q))
  rw [pay0_apply]
  unfold lin
  have hr : ((((cfg0.win 3).blk t).view.emb (ix2 p q)) 0).val = t.val * 512 + p.val := by
    show win0_3.index t (0 : Fin 2) * 512 + 1 * p.val = _; rw [e0]; omega
  have hc : ((((cfg0.win 3).blk t).view.emb (ix2 p q)) 1).val = q.val := by
    show win0_3.index t (1 : Fin 2) * 3072 + 1 * q.val = _; rw [e1]; omega
  refine congr (congrArg _ (Finset.sum_congr rfl fun k _ => ?_)) ?_
  · rw [iblk0_0_apply V c t p k (ix2 (⟨((((cfg0.win 3).blk t).view.emb (ix2 p q)) 0).val, ((((cfg0.win 3).blk t).view.emb (ix2 p q)) 0).isLt⟩ : Fin 4096) k) hr rfl,
      iblk0_1_apply V c t q k]
    exact congrArg _ (congrArg _ (funext fun a => Fin.ext (by match a with | ⟨0, _⟩ => exact hc.symm | ⟨1, _⟩ => rfl)))
  · rw [iblk0_2_apply V c t q]
    exact congrArg _ (funext fun a => Fin.ext (by match a with | ⟨0, _⟩ => exact hc.symm))

/-- An index of the array is in point `t`'s block iff each coordinate is in the block's range on its axis. -/
theorem mem_blk0 (t : Fin cfg0.N) (i : S4096x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v9).slice (win0_3.rect t)).set ↔ _
  rw [View.set_slice_whole, Rect.mem_set_unit]
  exact Iff.rfl

/-- Every index of the array lies in the block of the point that handles its row block. -/
theorem cover0 (i : S4096x3072.Idx) : ∃ t : Fin cfg0.N, (cfg0.win 3).flush t = true ∧ i ∈ ((cfg0.win 3).blk t).view.set := by
  have hi0 : (i 0).val < 4096 := (i 0).isLt
  have hi1 : (i 1).val < 3072 := (i 1).isLt
  have hN : cfg0.N = 8 := N_0
  refine ⟨⟨(i 0).val / 512, by rw [hN]; omega⟩, flush0_3 _, ?_⟩
  rw [mem_blk0]
  obtain ⟨-, -, -, -, -, e0, e1⟩ := idx_facts0 ⟨(i 0).val / 512, by rw [hN]; omega⟩
  intro a
  match a with
  | ⟨0, _⟩ => show win0_3.index _ (0 : Fin 2) * 512 ≤ (i 0).val ∧ (i 0).val < win0_3.index _ (0 : Fin 2) * 512 + 512; rw [e0]; show (i 0).val / 512 * 512 ≤ _ ∧ _ < (i 0).val / 512 * 512 + 512; omega
  | ⟨1, _⟩ => show win0_3.index _ (1 : Fin 2) * 3072 ≤ (i 1).val ∧ (i 1).val < win0_3.index _ (1 : Fin 2) * 3072 + 3072; rw [e1]; omega

/-- THE ARRAY after the region: the linear layer of the arrays it read. -/
theorem final0 (c : Dev nD) : (dat0 V c).arrAt 3 cfg0.N
    = lin (V c main_v1 : S4096x1024.Idx → EReal) (V c main_v8 : S3072x1024.Idx → EReal) (V c main_v7 : S3072.Idx → EReal) :=
  (dat0 V c).arrAt_eq_of_cover 3 _ (fun t _ => flushed0_eq V c t) cover0

end Cert.KernelIdeal.Val

end
-- ==== Proof.KvAttn.lean ====
/-
  The attention body read at one index.

  One head of the body takes a 512×64 query block and 2048×64 key and value blocks: the scores are the queries against
  the keys over the 64 columns; each row's largest score is kept as a column and subtracted; the exponentials are
  divided by their row sums, again kept as a column; and the result is the weighted sum of the value rows. Read at row
  `p` and column `d` that is the attention row of `Cert.Attn.attn`. The body runs this on the left and on the right 64
  columns of its blocks and places the two results side by side.
-/
import proofs.«158308_j21560735826201_2_alg».proof.Proof.KvOps

noncomputable section

namespace Cert.KernelIdeal.Val

open Idealize.ShloMosaic Idealize.ShloMosaic.ValueIdx Idealize.SL.Sem
open Cert.KernelIdeal Cert.KernelIdeal.Gen

theorem exp_apply' {s : Shape} {φ : FTy} (a : FVec Ideal s φ) (i : s.Idx) : exp a i = Ideal.exp (a i) := rfl

/-- Inserting the column `k` into the row index `p` gives the index `(p, k)`. -/
theorem lift_row (p : Fin 512) (k : Fin 2048) : reduces_S512x2048_S512.lift (ix1 p) k = ix2 p k :=
  funext fun a => Fin.ext (by match a with | ⟨0, _⟩ => rfl | ⟨1, _⟩ => rfl)

/-- A row's maximum from -∞, kept as a column and repeated along the row. -/
def rowMaxB (S : FVec Ideal S512x2048 .f32) : FVec Ideal S512x2048 .f32 :=
  broadcastTo S512x2048 (shapeCast S512x1 (multiReduction .maximumf [1] S512 S 0xFF800000#32 reduces_S512x2048_S512 (.inl rfl) rfl)
    shapeCasts_S512_S512x1) broadcasts_S512x1_S512x2048

/-- A row's sum, kept as a column and repeated along the row. -/
def rowSumB (S : FVec Ideal S512x2048 .f32) : FVec Ideal S512x2048 .f32 :=
  broadcastTo S512x2048 (shapeCast S512x1 (multiReduction .add [1] S512 S 0x00000000#32 reduces_S512x2048_S512 (.inl rfl) rfl)
    shapeCasts_S512_S512x1) broadcasts_S512x1_S512x2048

/-- At `(p, k)` the row maximum is the fold of `max` from -∞ over row `p`. -/
theorem rowMaxB_apply (S : FVec Ideal S512x2048 .f32) (p : Fin 512) (k : Fin 2048) :
    rowMaxB S (ix2 p k) = (Finset.univ : Finset (Fin 2048)).fold max ⊥ fun k' => S (ix2 p k') := by
  unfold rowMaxB
  rw [Cert.Columns.broadcastTo_a1_ab_apply, Cert.Columns.shapeCast_a_a1_apply]
  refine (Ideal.multiReduction_maximumf_single S 0xFF800000#32 reduces_S512x2048_S512 _ _ (ix1 p)).trans ?_
  rw [Ideal.ofBits_def, Cert.Attn.ofBits_neg_inf]
  exact congrArg (fun f : Fin 2048 → EReal => Finset.fold max ⊥ f Finset.univ) (funext fun k' => congrArg S (lift_row p k'))

/-- At `(p, k)` the row sum is the sum over row `p`. -/
theorem rowSumB_apply (S : FVec Ideal S512x2048 .f32) (p : Fin 512) (k : Fin 2048) :
    rowSumB S (ix2 p k) = ∑ k' : Fin 2048, S (ix2 p k') := by
  unfold rowSumB
  rw [Cert.Columns.broadcastTo_a1_ab_apply, Cert.Columns.shapeCast_a_a1_apply]
  refine (Ideal.multiReduction_add_single S 0x00000000#32 reduces_S512x2048_S512 _ _ (ix1 p)).trans ?_
  exact Finset.sum_congr rfl fun k' _ => congrArg S (lift_row p k')

/-- The scores of a head: the queries against the keys over the 64 head columns. -/
def scores (q : FVec Ideal S512x64 .bf16) (kk : FVec Ideal S2048x64 .bf16) : FVec Ideal S512x2048 .f32 :=
  matmul dot_S512x64_S2048x64_S512x2048_1_1_0_0_n_n none q kk (constant (F := Ideal) S512x2048 .f32 0x00000000#32)

/-- One head of the body. -/
def head (q : FVec Ideal S512x64 .bf16) (kk vv : FVec Ideal S2048x64 .bf16) : FVec Ideal S512x64 .bf16 :=
  truncf .bf16
    (matmul dot_S512x2048_S2048x64_S512x64_1_0_0_1_n_n none
      (truncf .bf16
        (divf (exp (subf (scores q kk) (rowMaxB (scores q kk))))
          (rowSumB (exp (subf (scores q kk) (rowMaxB (scores q kk))))))
        bitsLt_bf16_f32)
      vv (constant (F := Ideal) S512x64 .f32 0x00000000#32))
    bitsLt_bf16_f32

theorem scores_apply (q : FVec Ideal S512x64 .bf16) (kk : FVec Ideal S2048x64 .bf16) (p : Fin 512) (k : Fin 2048) :
    scores q kk (ix2 p k) = ∑ j : Fin 64, q (ix2 p j) * kk (ix2 k j) := mm_scores q kk p k

/-- A head at row `p`, column `d`, is the attention row of the query's row `p`, the keys, and column `d` of the values. -/
theorem head_apply (q : FVec Ideal S512x64 .bf16) (kk vv : FVec Ideal S2048x64 .bf16) (p : Fin 512) (d : Fin 64) :
    head q kk vv (ix2 p d)
      = Cert.Attn.attn (fun j => q (ix2 p j)) (fun k j => kk (ix2 k j)) (fun k => vv (ix2 k d)) := by
  unfold head Cert.Attn.attn
  rw [truncf_apply, mm_values]
  refine Finset.sum_congr rfl fun k _ => ?_
  simp only [truncf_apply, divf_apply, exp_apply', subf_apply, rowSumB_apply, rowMaxB_apply, scores_apply]

/-- The body is the two heads' results side by side (the loaded blocks still under their trivial casts). -/
theorem pay1_raw (x0 : Vec Ideal S512x128 .bf16) (x1 x2 : Vec Ideal S2048x128 .bf16) :
    k1_pay1 (F := Ideal) x0 x1 x2 = concatenate S512x128 1
      [⟨S512x64, head (extractStridedSlice S512x64 ![0, 0] (shapeCast S512x128 x0 shapeCasts_S512x128_S512x128) slices_S512x128_o0_0_S512x64)
          (extractStridedSlice S2048x64 ![0, 0] (shapeCast S2048x128 x1 shapeCasts_S2048x128_S2048x128) slices_S2048x128_o0_0_S2048x64)
          (extractStridedSlice S2048x64 ![0, 0] (shapeCast S2048x128 x2 shapeCasts_S2048x128_S2048x128) slices_S2048x128_o0_0_S2048x64)⟩,
        ⟨S512x64, head (extractStridedSlice S512x64 ![0, 64] (shapeCast S512x128 x0 shapeCasts_S512x128_S512x128) slices_S512x128_o0_64_S512x64)
          (extractStridedSlice S2048x64 ![0, 64] (shapeCast S2048x128 x1 shapeCasts_S2048x128_S2048x128) slices_S2048x128_o0_64_S2048x64)
          (extractStridedSlice S2048x64 ![0, 64] (shapeCast S2048x128 x2 shapeCasts_S2048x128_S2048x128) slices_S2048x128_o0_64_S2048x64)⟩]
      concatenates_S512x64_S512x64_S512x128_d1 := by
  unfold k1_pay1 head scores rowMaxB rowSumB
  rfl

/-- The same without the casts: a cast to the same shape is the identity. -/
theorem pay1_eq (x0 : Vec Ideal S512x128 .bf16) (x1 x2 : Vec Ideal S2048x128 .bf16) :
    k1_pay1 (F := Ideal) x0 x1 x2 = concatenate S512x128 1
      [⟨S512x64, head (extractStridedSlice S512x64 ![0, 0] x0 slices_S512x128_o0_0_S512x64)
          (extractStridedSlice S2048x64 ![0, 0] x1 slices_S2048x128_o0_0_S2048x64)
          (extractStridedSlice S2048x64 ![0, 0] x2 slices_S2048x128_o0_0_S2048x64)⟩,
        ⟨S512x64, head (extractStridedSlice S512x64 ![0, 64] x0 slices_S512x128_o0_64_S512x64)
          (extractStridedSlice S2048x64 ![0, 64] x1 slices_S2048x128_o0_64_S2048x64)
          (extractStridedSlice S2048x64 ![0, 64] x2 slices_S2048x128_o0_64_S2048x64)⟩]
      concatenates_S512x64_S512x64_S512x128_d1 := by
  rw [pay1_raw, shapeCast_self x0, shapeCast_self x1, shapeCast_self x2]

/-- A 64-column slice at column offset `off` of a 128-column block, read at `(p, j)`: the block at `(p, off + j)`. -/
theorem slice_q_apply (off : ℕ) (x : Vec Ideal S512x128 .bf16) (h : S512x128.Slices ![0, off] S512x64) (p : Fin 512) (j : Fin 64)
    (hb : off + j.val < 128) :
    extractStridedSlice S512x64 ![0, off] x h (ix2 p j) = x (ix2 p (⟨off + j.val, hb⟩ : Fin 128)) :=
  extractStridedSlice_apply _ x h (ix2 p j) _ fun a => by
    match a with
    | ⟨0, _⟩ => show p.val = 0 + p.val; omega
    | ⟨1, _⟩ => rfl
theorem slice_kv_apply (off : ℕ) (x : Vec Ideal S2048x128 .bf16) (h : S2048x128.Slices ![0, off] S2048x64) (k : Fin 2048) (j : Fin 64)
    (hb : off + j.val < 128) :
    extractStridedSlice S2048x64 ![0, off] x h (ix2 k j) = x (ix2 k (⟨off + j.val, hb⟩ : Fin 128)) :=
  extractStridedSlice_apply _ x h (ix2 k j) _ fun a => by
    match a with
    | ⟨0, _⟩ => show k.val = 0 + k.val; omega
    | ⟨1, _⟩ => rfl

/-- THE BODY at row `p`, column `cc`: the attention row of the query block's row `p` and the key block over the 64
    columns of `cc`'s head (those from `cc / 64 * 64`), and column `cc` of the value block. -/
theorem pay1_apply (x0 : Vec Ideal S512x128 .bf16) (x1 x2 : Vec Ideal S2048x128 .bf16) (p : Fin 512) (cc : Fin 128) :
    k1_pay1 (F := Ideal) x0 x1 x2 (ix2 p cc)
      = Cert.Attn.attn
          (fun j => x0 (ix2 p (⟨cc.val / 64 * 64 + j.val, by have := cc.isLt; have := j.isLt; omega⟩ : Fin 128)))
          (fun k j => x1 (ix2 k (⟨cc.val / 64 * 64 + j.val, by have := cc.isLt; have := j.isLt; omega⟩ : Fin 128)))
          (fun k => x2 (ix2 k cc)) := by
  rw [pay1_eq]
  by_cases hcc : cc.val < 64
  · have h0 : cc.val / 64 * 64 = 0 := by omega
    rw [concatenate_pair_apply_left (t := S512x128) (s₁ := S512x64) (s₂ := S512x64) (1 : Fin 2) _ _ concatenates_S512x64_S512x64_S512x128_d1 (ix2 p cc) rfl (ix2 p (⟨cc.val, hcc⟩ : Fin 64))
      (fun b => by match b with | ⟨0, _⟩ => rfl | ⟨1, _⟩ => rfl), head_apply]
    refine congr (congr (congrArg Cert.Attn.attn (funext fun j => ?_)) (funext fun k => funext fun j => ?_)) (funext fun k => ?_)
    · rw [slice_q_apply 0 x0 _ p j (by have := j.isLt; omega)]
      exact congrArg x0 (congrArg (ix2 p) (Fin.ext (by show 0 + j.val = cc.val / 64 * 64 + j.val; omega)))
    · rw [slice_kv_apply 0 x1 _ k j (by have := j.isLt; omega)]
      exact congrArg x1 (congrArg (ix2 k) (Fin.ext (by show 0 + j.val = cc.val / 64 * 64 + j.val; omega)))
    · rw [slice_kv_apply 0 x2 _ k ⟨cc.val, hcc⟩ (by show 0 + cc.val < 128; omega)]
      exact congrArg x2 (congrArg (ix2 k) (Fin.ext (by show 0 + cc.val = cc.val; omega)))
  · have hlt : cc.val < 128 := cc.isLt
    have h0 : cc.val / 64 * 64 = 64 := by omega
    rw [concatenate_pair_apply_right (t := S512x128) (s₁ := S512x64) (s₂ := S512x64) (1 : Fin 2) _ _ concatenates_S512x64_S512x64_S512x128_d1 (ix2 p cc) rfl rfl
      (ix2 p (⟨cc.val - 64, by omega⟩ : Fin 64))
      (fun b hb => by match b with | ⟨0, _⟩ => rfl | ⟨1, _⟩ => exact absurd rfl hb)
      (by show cc.val - 64 + 64 = cc.val; omega), head_apply]
    refine congr (congr (congrArg Cert.Attn.attn (funext fun j => ?_)) (funext fun k => funext fun j => ?_)) (funext fun k => ?_)
    · rw [slice_q_apply 64 x0 _ p j (by have := j.isLt; omega)]
      exact congrArg x0 (congrArg (ix2 p) (Fin.ext (by show 64 + j.val = cc.val / 64 * 64 + j.val; omega)))
    · rw [slice_kv_apply 64 x1 _ k j (by have := j.isLt; omega)]
      exact congrArg x1 (congrArg (ix2 k) (Fin.ext (by show 64 + j.val = cc.val / 64 * 64 + j.val; omega)))
    · rw [slice_kv_apply 64 x2 _ k ⟨cc.val - 64, by omega⟩ (by show 64 + (cc.val - 64) < 128; omega)]
      exact congrArg x2 (congrArg (ix2 k) (Fin.ext (by show 64 + (cc.val - 64) = cc.val; omega)))

end Cert.KernelIdeal.Val

end
-- ==== Proof.KvFinal1.lean ====
/-
  What the attention region leaves in its output array, as one function of the one array it reads.

  The input has 4096 token rows and 3072 columns: 1024 of queries, then 1024 of keys, then 1024 of values, each 16 heads
  of 64. The output has 4096 rows and 1024 columns. At row `t` and column `e` it is the attention row of: the queries of
  row `t` over the 64 columns of `e`'s head, the keys of the 2048 rows of `t`'s batch entry over the same head's columns
  (1024 further right), and the values of those rows in column `e` (2048 further right).

  Grid point `t` = (batch `b`, head pair `hp`, tile `ti`) reads the query block at row block `4b + ti`, column block `hp`,
  the key block at row block `b`, column block `8 + hp`, the value block at row block `b`, column block `16 + hp`, and
  writes the output block at row block `4b + ti`, column block `hp`. The 64 blocks tile the output.
-/
import proofs.«158308_j21560735826201_2_alg».proof.Proof.KvFinal0
import proofs.«158308_j21560735826201_2_alg».proof.Proof.KvAttn

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Rg

/-- Attention over a whole token-major q/k/v array. -/
def attnArr (A : S4096x3072.Idx → EReal) : S4096x1024.Idx → EReal := fun i =>
  Cert.Attn.attn
    (fun j => A (ix2 (⟨(i 0).val, (i 0).isLt⟩ : Fin 4096)
      (⟨(i 1).val / 64 * 64 + j.val, by have h1 : (i 1).val < 1024 := (i 1).isLt; have := j.isLt; omega⟩ : Fin 3072)))
    (fun k j => A (ix2 (⟨(i 0).val / 2048 * 2048 + k.val, by have h0 : (i 0).val < 4096 := (i 0).isLt; have := k.isLt; omega⟩ : Fin 4096)
      (⟨1024 + (i 1).val / 64 * 64 + j.val, by have h1 : (i 1).val < 1024 := (i 1).isLt; have := j.isLt; omega⟩ : Fin 3072)))
    (fun k => A (ix2 (⟨(i 0).val / 2048 * 2048 + k.val, by have h0 : (i 0).val < 4096 := (i 0).isLt; have := k.isLt; omega⟩ : Fin 4096)
      (⟨2048 + (i 1).val, by have h1 : (i 1).val < 1024 := (i 1).isLt; omega⟩ : Fin 3072)))

/-- The block indices of region 1's windows, decided over its 64 grid points. -/
theorem idx_facts1 : ∀ t : Fin cfg1.N,
    win1_0.index t (0 : Fin 2) = t.val / 32 * 4 + t.val % 4 ∧ win1_0.index t (1 : Fin 2) = t.val / 4 % 8
    ∧ win1_1.index t (0 : Fin 2) = t.val / 32 ∧ win1_1.index t (1 : Fin 2) = 8 + t.val / 4 % 8
    ∧ win1_2.index t (0 : Fin 2) = t.val / 32 ∧ win1_2.index t (1 : Fin 2) = 16 + t.val / 4 % 8
    ∧ win1_3.index t (0 : Fin 2) = t.val / 32 * 4 + t.val % 4 ∧ win1_3.index t (1 : Fin 2) = t.val / 4 % 8 :=
  (by decide +kernel : ∀ t : Fin grid1.N, _)

variable (V : (c : Dev nD) → (b : Ref sig .tc) → Buf (Elt Ideal) ((c : Thread nD τ).loc b))

/-- The query block at point `t`, read in the q/k/v array. -/
theorem iblk1_0_apply (c : Dev nD) (t : Fin cfg1.N) (p : Fin 512) (cc : Fin 128) (i : S4096x3072.Idx)
    (h0 : (i 0).val = (t.val / 32 * 4 + t.val % 4) * 512 + p.val) (h1 : (i 1).val = t.val / 4 % 8 * 128 + cc.val) :
    (iblk1 V c 0 t : Vec Ideal S512x128 .bf16) (ix2 p cc) = (V c main_v9 : S4096x3072.Idx → EReal) i := by
  obtain ⟨e0, e1, -⟩ := idx_facts1 t
  unfold iblk1
  rw [View.read_apply]
  show (V c main_v9 : S4096x3072.Idx → EReal) _ = _
  refine congrArg _ (funext fun a => Fin.ext ?_)
  match a with
  | ⟨0, _⟩ => show win1_0.index t (0 : Fin 2) * 512 + 1 * p.val = (i 0).val; rw [e0, h0]; omega
  | ⟨1, _⟩ => show win1_0.index t (1 : Fin 2) * 128 + 1 * cc.val = (i 1).val; rw [e1, h1]; omega

/-- The key block at point `t`. -/
theorem iblk1_1_apply (c : Dev nD) (t : Fin cfg1.N) (k : Fin 2048) (cc : Fin 128) (i : S4096x3072.Idx)
    (h0 : (i 0).val = t.val / 32 * 2048 + k.val) (h1 : (i 1).val = (8 + t.val / 4 % 8) * 128 + cc.val) :
    (iblk1 V c 1 t : Vec Ideal S2048x128 .bf16) (ix2 k cc) = (V c main_v9 : S4096x3072.Idx → EReal) i := by
  obtain ⟨-, -, e0, e1, -⟩ := idx_facts1 t
  unfold iblk1
  rw [View.read_apply]
  show (V c main_v9 : S4096x3072.Idx → EReal) _ = _
  refine congrArg _ (funext fun a => Fin.ext ?_)
  match a with
  | ⟨0, _⟩ => show win1_1.index t (0 : Fin 2) * 2048 + 1 * k.val = (i 0).val; rw [e0, h0]; omega
  | ⟨1, _⟩ => show win1_1.index t (1 : Fin 2) * 128 + 1 * cc.val = (i 1).val; rw [e1, h1]; omega

/-- The value block at point `t`. -/
theorem iblk1_2_apply (c : Dev nD) (t : Fin cfg1.N) (k : Fin 2048) (cc : Fin 128) (i : S4096x3072.Idx)
    (h0 : (i 0).val = t.val / 32 * 2048 + k.val) (h1 : (i 1).val = (16 + t.val / 4 % 8) * 128 + cc.val) :
    (iblk1 V c 2 t : Vec Ideal S2048x128 .bf16) (ix2 k cc) = (V c main_v9 : S4096x3072.Idx → EReal) i := by
  obtain ⟨-, -, -, -, e0, e1, -⟩ := idx_facts1 t
  unfold iblk1
  rw [View.read_apply]
  show (V c main_v9 : S4096x3072.Idx → EReal) _ = _
  refine congrArg _ (funext fun a => Fin.ext ?_)
  match a with
  | ⟨0, _⟩ => show win1_2.index t (0 : Fin 2) * 2048 + 1 * k.val = (i 0).val; rw [e0, h0]; omega
  | ⟨1, _⟩ => show win1_2.index t (1 : Fin 2) * 128 + 1 * cc.val = (i 1).val; rw [e1, h1]; omega

/-- The attention row of the three blocks at point `t`, row `p`, column `cc`, is the whole-array attention at any index
    `E` whose row is row `p` of the point's row block and whose column is column `cc` of its column block. -/
theorem attn_block (c : Dev nD) (t : Fin cfg1.N) (p : Fin 512) (cc : Fin 128) (E : S4096x1024.Idx)
    (hr : (E 0).val = (t.val / 32 * 4 + t.val % 4) * 512 + p.val) (hc : (E 1).val = t.val / 4 % 8 * 128 + cc.val) :
    Cert.Attn.attn
        (fun j => (iblk1 V c 0 t : Vec Ideal S512x128 .bf16) (ix2 p (⟨cc.val / 64 * 64 + j.val, by have := cc.isLt; have := j.isLt; omega⟩ : Fin 128)))
        (fun k j => (iblk1 V c 1 t : Vec Ideal S2048x128 .bf16) (ix2 k (⟨cc.val / 64 * 64 + j.val, by have := cc.isLt; have := j.isLt; omega⟩ : Fin 128)))
        (fun k => (iblk1 V c 2 t : Vec Ideal S2048x128 .bf16) (ix2 k cc))
      = attnArr (V c main_v9 : S4096x3072.Idx → EReal) E := by
  have hN : cfg1.N = 64 := N_1
  have ht : t.val < 64 := hN ▸ t.isLt
  have hp : p.val < 512 := p.isLt
  have hcc : cc.val < 128 := cc.isLt
  unfold attnArr
  refine congr (congr (congrArg Cert.Attn.attn (funext fun j => ?_)) (funext fun k => funext fun j => ?_)) (funext fun k => ?_)
  · have hj : j.val < 64 := j.isLt
    exact iblk1_0_apply V c t p (⟨cc.val / 64 * 64 + j.val, by omega⟩ : Fin 128)
      (ix2 (⟨(E 0).val, (E 0).isLt⟩ : Fin 4096) (⟨(E 1).val / 64 * 64 + j.val, by have h1 : (E 1).val < 1024 := (E 1).isLt; omega⟩ : Fin 3072))
      (by show (E 0).val = _; exact hr)
      (by show (E 1).val / 64 * 64 + j.val = t.val / 4 % 8 * 128 + (cc.val / 64 * 64 + j.val); rw [hc]; omega)
  · have hj : j.val < 64 := j.isLt
    have hk : k.val < 2048 := k.isLt
    exact iblk1_1_apply V c t k (⟨cc.val / 64 * 64 + j.val, by omega⟩ : Fin 128)
      (ix2 (⟨(E 0).val / 2048 * 2048 + k.val, by have h0 : (E 0).val < 4096 := (E 0).isLt; omega⟩ : Fin 4096)
        (⟨1024 + (E 1).val / 64 * 64 + j.val, by have h1 : (E 1).val < 1024 := (E 1).isLt; omega⟩ : Fin 3072))
      (by show (E 0).val / 2048 * 2048 + k.val = _; rw [hr]; omega)
      (by show 1024 + (E 1).val / 64 * 64 + j.val = (8 + t.val / 4 % 8) * 128 + (cc.val / 64 * 64 + j.val); rw [hc]; omega)
  · have hk : k.val < 2048 := k.isLt
    exact iblk1_2_apply V c t k cc
      (ix2 (⟨(E 0).val / 2048 * 2048 + k.val, by have h0 : (E 0).val < 4096 := (E 0).isLt; omega⟩ : Fin 4096)
        (⟨2048 + (E 1).val, by have h1 : (E 1).val < 1024 := (E 1).isLt; omega⟩ : Fin 3072))
      (by show (E 0).val / 2048 * 2048 + k.val = _; rw [hr]; omega)
      (by show 2048 + (E 1).val = (16 + t.val / 4 % 8) * 128 + cc.val; rw [hc]; omega)

/-- WHAT POINT `t` WRITES BACK is block `t` of the attention of the q/k/v array as the region finds it. -/
theorem flushed1_eq (c : Dev nD) (t : Fin cfg1.N) :
    (dat1 V c).flushed 3 t = ((cfg1.win 3).blk t).view.read (Elt Ideal) (attnArr (V c main_v9 : S4096x3072.Idx → EReal)) := by
  show (cfg1.win 3).cut (grid1.coords t) ((dat1 V c).after 3 t) = _
  rw [after1_3]
  unfold out1_3
  rw [View.canon_unit_zero hz2]
  simp only [View.ld_unit_zero (S := S512x128) hz2, View.ld_unit_zero (S := S2048x128) hz2]
  obtain ⟨-, -, -, -, -, -, e0, e1⟩ := idx_facts1 t
  funext j
  obtain ⟨p, cc, rfl⟩ : ∃ (p : Fin 512) (cc : Fin 128), j = ix2 p cc := ⟨j 0, j 1, eq_ix2 j⟩
  show k1_pay1 (F := Ideal) (iblk1 V c 0 t) (iblk1 V c 1 t) (iblk1 V c 2 t) (ix2 p cc)
    = attnArr (V c main_v9 : S4096x3072.Idx → EReal) (((cfg1.win 3).blk t).view.emb (ix2 p cc))
  rw [pay1_apply]
  have hr : ((((cfg1.win 3).blk t).view.emb (ix2 p cc)) 0).val = (t.val / 32 * 4 + t.val % 4) * 512 + p.val := by
    show win1_3.index t (0 : Fin 2) * 512 + 1 * p.val = _; rw [e0]; omega
  have hc : ((((cfg1.win 3).blk t).view.emb (ix2 p cc)) 1).val = t.val / 4 % 8 * 128 + cc.val := by
    show win1_3.index t (1 : Fin 2) * 128 + 1 * cc.val = _; rw [e1]; omega
  exact attn_block V c t p cc _ hr hc

/-- An index of the array is in point `t`'s block iff each coordinate is in the block's range on its axis. -/
theorem mem_blk1 (t : Fin cfg1.N) (i : S4096x1024.Idx) :
    i ∈ ((cfg1.win 3).blk t).view.set ↔ ∀ a : Fin 2, win1_3.index t a * S512x128.size a ≤ (i a).val ∧ (i a).val < win1_3.index t a * S512x128.size a + S512x128.size a := by
  show i ∈ ((View.whole main_v10).slice (win1_3.rect t)).set ↔ _
  rw [View.set_slice_whole, Rect.mem_set_unit]
  exact Iff.rfl

/-- Every index of the array lies in the block of the point of its batch entry, head pair and query tile. -/
theorem cover1 (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 64 := N_1
  have hb : (i 0).val / 2048 * 32 + (i 1).val / 128 * 4 + (i 0).val / 512 % 4 < cfg1.N := by rw [hN]; omega
  refine ⟨⟨(i 0).val / 2048 * 32 + (i 1).val / 128 * 4 + (i 0).val / 512 % 4, hb⟩, flush1_3 _, ?_⟩
  rw [mem_blk1]
  obtain ⟨-, -, -, -, -, -, e0, e1⟩ := idx_facts1 ⟨(i 0).val / 2048 * 32 + (i 1).val / 128 * 4 + (i 0).val / 512 % 4, hb⟩
  intro a
  match a with
  | ⟨0, _⟩ =>
    show win1_3.index _ (0 : Fin 2) * 512 ≤ (i 0).val ∧ (i 0).val < win1_3.index _ (0 : Fin 2) * 512 + 512
    rw [e0]
    show (((i 0).val / 2048 * 32 + (i 1).val / 128 * 4 + (i 0).val / 512 % 4) / 32 * 4 + ((i 0).val / 2048 * 32 + (i 1).val / 128 * 4 + (i 0).val / 512 % 4) % 4) * 512 ≤ (i 0).val
      ∧ (i 0).val < (((i 0).val / 2048 * 32 + (i 1).val / 128 * 4 + (i 0).val / 512 % 4) / 32 * 4 + ((i 0).val / 2048 * 32 + (i 1).val / 128 * 4 + (i 0).val / 512 % 4) % 4) * 512 + 512
    omega
  | ⟨1, _⟩ =>
    show win1_3.index _ (1 : Fin 2) * 128 ≤ (i 1).val ∧ (i 1).val < win1_3.index _ (1 : Fin 2) * 128 + 128
    rw [e1]
    show ((i 0).val / 2048 * 32 + (i 1).val / 128 * 4 + (i 0).val / 512 % 4) / 4 % 8 * 128 ≤ (i 1).val
      ∧ (i 1).val < ((i 0).val / 2048 * 32 + (i 1).val / 128 * 4 + (i 0).val / 512 % 4) / 4 % 8 * 128 + 128
    omega

/-- THE ARRAY after the region: the attention of the array it read. -/
theorem final1 (c : Dev nD) : (dat1 V c).arrAt 3 cfg1.N = attnArr (V c main_v9 : S4096x3072.Idx → EReal) :=
  (dat1 V c).arrAt_eq_of_cover 3 _ (fun t _ => flushed1_eq V c t) cover1

end Cert.KernelIdeal.Val

end
-- ==== Proof.KvFinal2.lean ====
/-
  What the output-projection region leaves in its output array, as one function of the arrays it reads.

  The output has 4096 rows and 1024 columns. Grid point `t` handles rows 512·t … 512·t + 511: its input block is those
  rows of the attention output, its weight and bias blocks are the whole output weight and the whole bias, and what it
  writes back is, at row `r` and column `e`, the row of attention outputs against row `e` of the weight plus entry `e` of
  the bias. The eight row blocks tile the array, so the array ends holding that function everywhere.
-/
import proofs.«158308_j21560735826201_2_alg».proof.Proof.KvFinal0

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Rg

variable (m : (ℓ : Loc nD τ sig) → Buf (Elt Ideal) ℓ)

/-- The block indices of region 2's windows, decided over its eight grid points: the inputs and the output move
    down one row block per point, the weight and the bias stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- The activation block at point `t` is rows 512·t … of the input array. -/
theorem iblk2_0_apply (c : Dev nD) (t : Fin cfg2.N) (p : Fin 512) (k : Fin 1024) (i : S4096x1024.Idx)
    (h0 : (i 0).val = t.val * 512 + p.val) (h1 : (i 1).val = k.val) :
    (iblk2 V c 0 t : Vec Ideal S512x1024 .bf16) (ix2 p k) = (V c main_v10 : S4096x1024.Idx → EReal) i := by
  obtain ⟨e0, e1, -⟩ := idx_facts2 t
  unfold iblk2
  rw [View.read_apply]
  show (V c main_v10 : S4096x1024.Idx → EReal) _ = _
  refine congrArg _ (funext fun a => Fin.ext ?_)
  match a with
  | ⟨0, _⟩ => show win2_0.index t (0 : Fin 2) * 512 + 1 * p.val = (i 0).val; rw [e0, h0]; omega
  | ⟨1, _⟩ => show win2_0.index t (1 : Fin 2) * 1024 + 1 * k.val = (i 1).val; rw [e1, h1]; omega

/-- The weight block at every point is the whole weight. -/
theorem iblk2_1_apply (c : Dev nD) (t : Fin cfg2.N) (q : Fin 1024) (k : Fin 1024) :
    (iblk2 V c 1 t : Vec Ideal S1024x1024 .bf16) (ix2 q k) = (V c main_v11 : S1024x1024.Idx → EReal) (ix2 q k) := by
  obtain ⟨-, -, e0, e1, -⟩ := idx_facts2 t
  unfold iblk2
  rw [View.read_apply]
  show (V c main_v11 : S1024x1024.Idx → EReal) _ = _
  refine congrArg _ (funext fun a => Fin.ext ?_)
  match a with
  | ⟨0, _⟩ => show win2_1.index t (0 : Fin 2) * 1024 + 1 * q.val = q.val; rw [e0]; omega
  | ⟨1, _⟩ => show win2_1.index t (1 : Fin 2) * 1024 + 1 * k.val = k.val; rw [e1]; omega

/-- The bias block at every point is the whole bias. -/
theorem iblk2_2_apply (c : Dev nD) (t : Fin cfg2.N) (q : Fin 1024) :
    (iblk2 V c 2 t : Vec Ideal S1024 .f32) (ix1 q) = (V c main_arg8 : S1024.Idx → EReal) (ix1 q) := by
  obtain ⟨-, -, -, -, e0, -⟩ := idx_facts2 t
  unfold iblk2
  rw [View.read_apply]
  show (V c main_arg8 : S1024.Idx → EReal) _ = _
  refine congrArg _ (funext fun a => Fin.ext ?_)
  match a with
  | ⟨0, _⟩ => show win2_2.index t (0 : Fin 1) * 1024 + 1 * q.val = q.val; rw [e0]; omega

/-- WHAT POINT `t` WRITES BACK is block `t` of the linear layer of the arrays as the region finds them. -/
theorem flushed2_eq (c : Dev nD) (t : Fin cfg2.N) :
    (dat2 V c).flushed 3 t = ((cfg2.win 3).blk t).view.read (Elt Ideal)
      (lin (V c main_v10 : S4096x1024.Idx → EReal) (V c main_v11 : S1024x1024.Idx → EReal) (V c main_arg8 : S1024.Idx → EReal)) := by
  show (cfg2.win 3).cut (grid2.coords t) ((dat2 V c).after 3 t) = _
  rw [after2_3]
  unfold out2_3
  rw [View.canon_unit_zero hz2]
  simp only [View.ld_unit_zero (S := S512x1024) hz2, View.ld_unit_zero (S := S1024x1024) hz2, View.ld_unit_zero (S := S1024) hz1]
  obtain ⟨-, -, -, -, -, e0, e1⟩ := idx_facts2 t
  funext j
  obtain ⟨p, q, rfl⟩ : ∃ (p : Fin 512) (q : Fin 1024), j = ix2 p q := ⟨j 0, j 1, eq_ix2 j⟩
  show k2_pay1 (F := Ideal) (iblk2 V c 0 t) (iblk2 V c 1 t) (iblk2 V c 2 t) (ix2 p q)
    = lin (V c main_v10 : S4096x1024.Idx → EReal) (V c main_v11 : S1024x1024.Idx → EReal) (V c main_arg8 : S1024.Idx → EReal)
        (((cfg2.win 3).blk t).view.emb (ix2 p q))
  rw [pay2_apply]
  unfold lin
  have hr : ((((cfg2.win 3).blk t).view.emb (ix2 p q)) 0).val = t.val * 512 + p.val := by
    show win2_3.index t (0 : Fin 2) * 512 + 1 * p.val = _; rw [e0]; omega
  have hc : ((((cfg2.win 3).blk t).view.emb (ix2 p q)) 1).val = q.val := by
    show win2_3.index t (1 : Fin 2) * 1024 + 1 * q.val = _; rw [e1]; omega
  refine congr (congrArg _ (Finset.sum_congr rfl fun k _ => ?_)) ?_
  · rw [iblk2_0_apply V c t p k (ix2 (⟨((((cfg2.win 3).blk t).view.emb (ix2 p q)) 0).val, ((((cfg2.win 3).blk t).view.emb (ix2 p q)) 0).isLt⟩ : Fin 4096) k) hr rfl,
      iblk2_1_apply V c t q k]
    exact congrArg _ (congrArg _ (funext fun a => Fin.ext (by match a with | ⟨0, _⟩ => exact hc.symm | ⟨1, _⟩ => rfl)))
  · rw [iblk2_2_apply V c t q]
    exact congrArg _ (funext fun a => Fin.ext (by match a with | ⟨0, _⟩ => exact hc.symm))

/-- An index of the array is in point `t`'s block iff each coordinate is in the block's range on its axis. -/
theorem mem_blk2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v12).slice (win2_3.rect t)).set ↔ _
  rw [View.set_slice_whole, Rect.mem_set_unit]
  exact Iff.rfl

/-- Every index of the array lies in the block of the point that handles its row block. -/
theorem cover2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 8 := N_2
  refine ⟨⟨(i 0).val / 512, by rw [hN]; omega⟩, flush2_3 _, ?_⟩
  rw [mem_blk2]
  obtain ⟨-, -, -, -, -, e0, e1⟩ := idx_facts2 ⟨(i 0).val / 512, by rw [hN]; omega⟩
  intro a
  match a with
  | ⟨0, _⟩ => show win2_3.index _ (0 : Fin 2) * 512 ≤ (i 0).val ∧ (i 0).val < win2_3.index _ (0 : Fin 2) * 512 + 512; rw [e0]; show (i 0).val / 512 * 512 ≤ _ ∧ _ < (i 0).val / 512 * 512 + 512; omega
  | ⟨1, _⟩ => show win2_3.index _ (1 : Fin 2) * 1024 ≤ (i 1).val ∧ (i 1).val < win2_3.index _ (1 : Fin 2) * 1024 + 1024; rw [e1]; omega

/-- THE ARRAY after the region: the linear layer of the arrays it read. -/
theorem final2 (c : Dev nD) : (dat2 V c).arrAt 3 cfg2.N
    = lin (V c main_v10 : S4096x1024.Idx → EReal) (V c main_v11 : S1024x1024.Idx → EReal) (V c main_arg8 : S1024.Idx → EReal) :=
  (dat2 V c).arrAt_eq_of_cover 3 _ (fun t _ => flushed2_eq V c t) cover2

end Cert.KernelIdeal.Val

end
-- ==== Proof.KvChain.lean ====
/-
  The kernel's result buffer as the result function of the nine arguments.

  Composing the three regions with the host operations between them: the q/k/v array holds, at token `t`, the query
  projection scaled by 1/8 in columns 0–1023 (the scale law), the key projection in columns 1024–2047 and the value
  projection in columns 2048–3071; the attention array holds `att` at every token and column; the output projection of
  that, folded back to (batch entry, position, column), is `result`.
-/
import proofs.«158308_j21560735826201_2_alg».proof.Proof.KvHost
import proofs.«158308_j21560735826201_2_alg».proof.Proof.KvFinal1
import proofs.«158308_j21560735826201_2_alg».proof.Proof.KvFinal2

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Rg

variable (m : (ℓ : Loc nD τ sig) → Buf (Elt Ideal) ℓ)

theorem lin_apply {R N : ℕ} (X : (⟨2, ![R, 1024]⟩ : Shape).Idx → EReal) (W : (⟨2, ![N, 1024]⟩ : Shape).Idx → EReal)
    (b : (⟨1, ![N]⟩ : Shape).Idx → EReal) (p : Fin R) (q : Fin N) :
    lin X W b (ix2 p q) = (∑ k : Fin 1024, X (ix2 p k) * W (ix2 q k)) + b (ix1 q) := rfl

theorem attnArr_apply (A : S4096x3072.Idx → EReal) (T : Fin 4096) (d : Fin 1024) :
    attnArr A (ix2 T d) = Cert.Attn.attn
      (fun j => A (ix2 T (⟨d.val / 64 * 64 + j.val, by have := d.isLt; have := j.isLt; omega⟩ : Fin 3072)))
      (fun k j => A (ix2 (⟨T.val / 2048 * 2048 + k.val, by have := T.isLt; have := k.isLt; omega⟩ : Fin 4096)
        (⟨1024 + d.val / 64 * 64 + j.val, by have := d.isLt; have := j.isLt; omega⟩ : Fin 3072)))
      (fun k => A (ix2 (⟨T.val / 2048 * 2048 + k.val, by have := T.isLt; have := k.isLt; omega⟩ : Fin 4096)
        (⟨2048 + d.val, by have := d.isLt; omega⟩ : Fin 3072))) := rfl

/-- The scale law in the result's vocabulary. -/
theorem proj_scaled (x : Cert.Attn.TX) (W : Cert.Attn.TW) (b : Cert.Attn.TB) (t : Fin 4096) (e : Fin 1024) :
    (∑ d : Fin 1024, Cert.Attn.tok x t d * (W (ix2 e d) * Cert.Attn.c8)) + b (ix1 e) * Cert.Attn.c8
      = Cert.Attn.proj x W b t e * Cert.Attn.c8 :=
  Cert.Attn.scale_law (fun d => Cert.Attn.tok x t d) (fun d => W (ix2 e d)) (b (ix1 e))

/-- The q/k/v array is the linear layer of the flattened activations and the stacked weight and bias. -/
theorem v9_eq (c : Dev nD) : (W2 m c (Proc.devRef .tc main_v9) : S4096x3072.Idx → EReal)
    = lin (W1 m c (Proc.devRef .tc main_v1) : S4096x1024.Idx → EReal) (W1 m c (Proc.devRef .tc main_v8) : S3072x1024.Idx → EReal)
        (W1 m c (Proc.devRef .tc main_v7) : S3072.Idx → EReal) :=
  (W2_same m c).trans (final0 (V1 m) c)

/-- Its query columns: the query projection times 1/8. -/
theorem qkv_q (c : Dev nD) (t : Fin 4096) (e : Fin 1024) (E : Fin 3072) (hE : E.val = e.val) :
    (W2 m c (Proc.devRef .tc main_v9) : S4096x3072.Idx → EReal) (ix2 t E)
      = Cert.Attn.proj (m ((c : Thread nD τ).loc main_arg0) : S2x2048x1024.Idx → EReal)
          (m ((c : Thread nD τ).loc main_arg1) : S1024x1024.Idx → EReal) (m ((c : Thread nD τ).loc main_arg2) : S1024.Idx → EReal) t e
        * Cert.Attn.c8 := by
  rw [v9_eq, lin_apply, v7_q m c e E hE]
  refine Eq.trans ?_ (proj_scaled _ _ _ t e)
  refine congrArg (· + _) (Finset.sum_congr rfl fun k _ => ?_)
  rw [v1_apply m c t k, v8_q m c e k E hE]
/-- Its key columns: the key projection. -/
theorem qkv_k (c : Dev nD) (t : Fin 4096) (e : Fin 1024) (E : Fin 3072) (hE : E.val = 1024 + e.val) :
    (W2 m c (Proc.devRef .tc main_v9) : S4096x3072.Idx → EReal) (ix2 t E)
      = Cert.Attn.proj (m ((c : Thread nD τ).loc main_arg0) : S2x2048x1024.Idx → EReal)
          (m ((c : Thread nD τ).loc main_arg3) : S1024x1024.Idx → EReal) (m ((c : Thread nD τ).loc main_arg4) : S1024.Idx → EReal) t e := by
  rw [v9_eq, lin_apply, v7_k m c e E hE]
  unfold Cert.Attn.proj
  refine congrArg (· + _) (Finset.sum_congr rfl fun k _ => ?_)
  rw [v1_apply m c t k, v8_k m c e k E hE]
/-- Its value columns: the value projection. -/
theorem qkv_v (c : Dev nD) (t : Fin 4096) (e : Fin 1024) (E : Fin 3072) (hE : E.val = 2048 + e.val) :
    (W2 m c (Proc.devRef .tc main_v9) : S4096x3072.Idx → EReal) (ix2 t E)
      = Cert.Attn.proj (m ((c : Thread nD τ).loc main_arg0) : S2x2048x1024.Idx → EReal)
          (m ((c : Thread nD τ).loc main_arg5) : S1024x1024.Idx → EReal) (m ((c : Thread nD τ).loc main_arg6) : S1024.Idx → EReal) t e := by
  rw [v9_eq, lin_apply, v7_v m c e E hE]
  unfold Cert.Attn.proj
  refine congrArg (· + _) (Finset.sum_congr rfl fun k _ => ?_)
  rw [v1_apply m c t k, v8_v m c e k E hE]

/-- The attention array is the attention of the q/k/v array. -/
theorem v10_eq (c : Dev nD) : (W3 m c (Proc.devRef .tc main_v10) : S4096x1024.Idx → EReal)
    = attnArr (W2 m c (Proc.devRef .tc main_v9) : S4096x3072.Idx → EReal) :=
  (W3_same m c).trans (final1 (V2 m) c)

/-- At token `T`, column `d`, it is the attention output `att`. -/
theorem att_eq (c : Dev nD) (T : Fin 4096) (d : Fin 1024) :
    (W3 m c (Proc.devRef .tc main_v10) : S4096x1024.Idx → EReal) (ix2 T d)
      = Cert.Attn.att (m ((c : Thread nD τ).loc main_arg0) : S2x2048x1024.Idx → EReal)
          (m ((c : Thread nD τ).loc main_arg1) : S1024x1024.Idx → EReal) (m ((c : Thread nD τ).loc main_arg2) : S1024.Idx → EReal)
          (m ((c : Thread nD τ).loc main_arg3) : S1024x1024.Idx → EReal) (m ((c : Thread nD τ).loc main_arg4) : S1024.Idx → EReal)
          (m ((c : Thread nD τ).loc main_arg5) : S1024x1024.Idx → EReal) (m ((c : Thread nD τ).loc main_arg6) : S1024.Idx → EReal) T d := by
  have hT := T.isLt
  have hd := d.isLt
  rw [v10_eq, attnArr_apply]
  unfold Cert.Attn.att
  refine congr (congr (congrArg Cert.Attn.attn (funext fun j => ?_)) (funext fun k => funext fun j => ?_)) (funext fun k => ?_)
  · exact qkv_q m c T _ _ rfl
  · have hj := j.isLt
    exact qkv_k m c _ (⟨d.val / 64 * 64 + j.val, by omega⟩ : Fin 1024) _ (by show 1024 + d.val / 64 * 64 + j.val = 1024 + (d.val / 64 * 64 + j.val); omega)
  · exact qkv_v m c _ d _ rfl

/-- The output projection's array is the linear layer of the attention array, the output weight and the bias. -/
theorem v12_eq (c : Dev nD) : (W5 m c (Proc.devRef .tc main_v12) : S4096x1024.Idx → EReal)
    = lin (W4 m c (Proc.devRef .tc main_v10) : S4096x1024.Idx → EReal) (W4 m c (Proc.devRef .tc main_v11) : S1024x1024.Idx → EReal)
        (W4 m c (Proc.devRef .tc main_arg8) : S1024.Idx → EReal) :=
  (W5_same m c).trans (final2 (V4 m) c)

/-- THE KERNEL'S RESULT: the result function of its nine arguments. -/
theorem kernel_value (c : Dev nD) :
    (W6 m c (Proc.devRef .tc main_v13) : S2x2048x1024.Idx → EReal)
      = Cert.Attn.result (m ((c : Thread nD τ).loc main_arg0) : S2x2048x1024.Idx → EReal)
          (m ((c : Thread nD τ).loc main_arg1) : S1024x1024.Idx → EReal) (m ((c : Thread nD τ).loc main_arg2) : S1024.Idx → EReal)
          (m ((c : Thread nD τ).loc main_arg3) : S1024x1024.Idx → EReal) (m ((c : Thread nD τ).loc main_arg4) : S1024.Idx → EReal)
          (m ((c : Thread nD τ).loc main_arg5) : S1024x1024.Idx → EReal) (m ((c : Thread nD τ).loc main_arg6) : S1024.Idx → EReal)
          (m ((c : Thread nD τ).loc main_arg7) : S1024x1024.Idx → EReal) (m ((c : Thread nD τ).loc main_arg8) : S1024.Idx → EReal) := by
  funext i
  rw [v13_apply, v12_eq, lin_apply]
  unfold Cert.Attn.result
  refine congr (congrArg _ (Finset.sum_congr rfl fun d _ => ?_)) ?_
  · rw [v11_apply]
    refine congrArg (· * _) ?_
    rw [show (W4 m c (Proc.devRef .tc main_v10) : S4096x1024.Idx → EReal) = W3 m c (Proc.devRef .tc main_v10) from W4_of m c main_v10 (by decide)]
    exact att_eq m c _ d
  · exact congrFun (arg8_eq m c) _

end Cert.KernelIdeal.Val

end
-- ==== Proof.KvRef.lean ====
/-
  The reference program's result as the result function of the nine arguments.

  Read one operation at a time from the generated read-at-an-index lemmas: each projection at a token and a column; the
  split of the 1024 columns into 16 heads of 64; the query divided by the square root of 64, which is the query times
  1/8; the scores of a query row against the keys of its batch entry and head; the largest score (the reference takes
  the maximum once more against -∞, which changes nothing); the exponentials of the differences and their sum from
  zero; the weighted sum of the values, which is the attention row; the heads folded back to 1024 columns; and the
  output projection.
-/
import proofs.«158308_j21560735826201_2_alg».proof.Proof.Gen.ReferenceIdeal.Read
import proofs.«158308_j21560735826201_2_alg».proof.Proof.KvResult

set_option maxRecDepth 16384

noncomputable section

namespace Cert.ReferenceIdeal.RefVal

open Idealize.ShloMosaic Idealize.ShloMosaic.ValueIdx Idealize.SL.Sem
open Cert.ReferenceIdeal Cert.ReferenceIdeal.Gen Cert.ReferenceIdeal.Read

abbrev X := (⟨S2x2048x1024, .f32⟩ : BufTy).Contents (Elt Ideal)
abbrev Wt := (⟨S1024x1024, .f32⟩ : BufTy).Contents (Elt Ideal)
abbrev Bt := (⟨S1024, .f32⟩ : BufTy).Contents (Elt Ideal)

/-! ## The three projections -/

/-- The query projection at batch entry `b`, position `s`, column `E`. -/
theorem proj_v3 (x0 : X) (x1 : Wt) (x2 : Bt) (b : Fin 2) (s : Fin 2048) (E : Fin 1024) :
    val_main_v3 (F := Ideal) x0 x1 x2 (ix3 b s E) = Cert.Attn.proj x0 x1 x2 (⟨b.val * 2048 + s.val, by have := b.isLt; have := s.isLt; omega⟩ : Fin 4096) E := by
  rw [val_main_v3_apply, val_main_v0_apply, val_main_v2_apply, val_main_v1_apply]
  unfold Cert.Attn.proj Cert.Attn.tok
  show _ + _ = _ + _
  refine congr (congrArg _ (Finset.sum_congr rfl fun k _ => ?_)) ?_
  · refine congr (congrArg _ (congrArg x0 (funext fun a => Fin.ext ?_))) (congrArg x1 (funext fun a => Fin.ext ?_))
    · have := b.isLt; have := s.isLt
      match a with
      | ⟨0, _⟩ => show b.val = (b.val * 2048 + s.val) / 2048; omega
      | ⟨1, _⟩ => show s.val = (b.val * 2048 + s.val) % 2048; omega
      | ⟨2, _⟩ => rfl
    · match a with | ⟨0, _⟩ => rfl | ⟨1, _⟩ => rfl
  · exact congrArg x2 (funext fun a => Fin.ext (by match a with | ⟨0, _⟩ => rfl))

/-- The key projection at batch entry `b`, position `s`, column `E`. -/
theorem proj_v12 (x0 : X) (x3 : Wt) (x4 : Bt) (b : Fin 2) (s : Fin 2048) (E : Fin 1024) :
    val_main_v12 (F := Ideal) x0 x3 x4 (ix3 b s E) = Cert.Attn.proj x0 x3 x4 (⟨b.val * 2048 + s.val, by have := b.isLt; have := s.isLt; omega⟩ : Fin 4096) E := by
  rw [val_main_v12_apply, val_main_v9_apply, val_main_v11_apply, val_main_v10_apply]
  unfold Cert.Attn.proj Cert.Attn.tok
  show _ + _ = _ + _
  refine congr (congrArg _ (Finset.sum_congr rfl fun k _ => ?_)) ?_
  · refine congr (congrArg _ (congrArg x0 (funext fun a => Fin.ext ?_))) (congrArg x3 (funext fun a => Fin.ext ?_))
    · have := b.isLt; have := s.isLt
      match a with
      | ⟨0, _⟩ => show b.val = (b.val * 2048 + s.val) / 2048; omega
      | ⟨1, _⟩ => show s.val = (b.val * 2048 + s.val) % 2048; omega
      | ⟨2, _⟩ => rfl
    · match a with | ⟨0, _⟩ => rfl | ⟨1, _⟩ => rfl
  · exact congrArg x4 (funext fun a => Fin.ext (by match a with | ⟨0, _⟩ => rfl))

/-- The value projection at batch entry `b`, position `s`, column `E`. -/
theorem proj_v18 (x0 : X) (x5 : Wt) (x6 : Bt) (b : Fin 2) (s : Fin 2048) (E : Fin 1024) :
    val_main_v18 (F := Ideal) x0 x5 x6 (ix3 b s E) = Cert.Attn.proj x0 x5 x6 (⟨b.val * 2048 + s.val, by have := b.isLt; have := s.isLt; omega⟩ : Fin 4096) E := by
  rw [val_main_v18_apply, val_main_v15_apply, val_main_v17_apply, val_main_v16_apply]
  unfold Cert.Attn.proj Cert.Attn.tok
  show _ + _ = _ + _
  refine congr (congrArg _ (Finset.sum_congr rfl fun k _ => ?_)) ?_
  · refine congr (congrArg _ (congrArg x0 (funext fun a => Fin.ext ?_))) (congrArg x5 (funext fun a => Fin.ext ?_))
    · have := b.isLt; have := s.isLt
      match a with
      | ⟨0, _⟩ => show b.val = (b.val * 2048 + s.val) / 2048; omega
      | ⟨1, _⟩ => show s.val = (b.val * 2048 + s.val) % 2048; omega
      | ⟨2, _⟩ => rfl
    · match a with | ⟨0, _⟩ => rfl | ⟨1, _⟩ => rfl
  · exact congrArg x6 (funext fun a => Fin.ext (by match a with | ⟨0, _⟩ => rfl))

/-! ## The heads layout -/

/-- Head `h`, column `j` of the heads layout is column `64·h + j` of the token-major layout. -/
theorem head_v5 (x0 : X) (x1 : Wt) (x2 : Bt) (b : Fin 2) (h : Fin 16) (s : Fin 2048) (j : Fin 64) :
    val_main_v5 (F := Ideal) x0 x1 x2 (ix4 b h s j) = val_main_v3 (F := Ideal) x0 x1 x2 (ix3 b s (⟨h.val * 64 + j.val, by have := h.isLt; have := j.isLt; omega⟩ : Fin 1024)) := by
  rw [val_main_v5_apply, val_main_v4_apply]
  refine congrArg _ (funext fun a => Fin.ext ?_)
  have := b.isLt; have := h.isLt; have := s.isLt; have := j.isLt
  match a with
  | ⟨0, _⟩ => show (((b.val * 2048 + s.val) * 16 + h.val) * 64 + j.val) / 2097152 = b.val; omega
  | ⟨1, _⟩ => show (((b.val * 2048 + s.val) * 16 + h.val) * 64 + j.val) / 1024 % 2048 = s.val; omega
  | ⟨2, _⟩ => show (((b.val * 2048 + s.val) * 16 + h.val) * 64 + j.val) % 1024 = h.val * 64 + j.val; omega

/-- Head `h`, column `j` of the heads layout is column `64·h + j` of the token-major layout. -/
theorem head_v14 (x0 : X) (x3 : Wt) (x4 : Bt) (b : Fin 2) (h : Fin 16) (s : Fin 2048) (j : Fin 64) :
    val_main_v14 (F := Ideal) x0 x3 x4 (ix4 b h s j) = val_main_v12 (F := Ideal) x0 x3 x4 (ix3 b s (⟨h.val * 64 + j.val, by have := h.isLt; have := j.isLt; omega⟩ : Fin 1024)) := by
  rw [val_main_v14_apply, val_main_v13_apply]
  refine congrArg _ (funext fun a => Fin.ext ?_)
  have := b.isLt; have := h.isLt; have := s.isLt; have := j.isLt
  match a with
  | ⟨0, _⟩ => show (((b.val * 2048 + s.val) * 16 + h.val) * 64 + j.val) / 2097152 = b.val; omega
  | ⟨1, _⟩ => show (((b.val * 2048 + s.val) * 16 + h.val) * 64 + j.val) / 1024 % 2048 = s.val; omega
  | ⟨2, _⟩ => show (((b.val * 2048 + s.val) * 16 + h.val) * 64 + j.val) % 1024 = h.val * 64 + j.val; omega

/-- Head `h`, column `j` of the heads layout is column `64·h + j` of the token-major layout. -/
theorem head_v20 (x0 : X) (x5 : Wt) (x6 : Bt) (b : Fin 2) (h : Fin 16) (s : Fin 2048) (j : Fin 64) :
    val_main_v20 (F := Ideal) x0 x5 x6 (ix4 b h s j) = val_main_v18 (F := Ideal) x0 x5 x6 (ix3 b s (⟨h.val * 64 + j.val, by have := h.isLt; have := j.isLt; omega⟩ : Fin 1024)) := by
  rw [val_main_v20_apply, val_main_v19_apply]
  refine congrArg _ (funext fun a => Fin.ext ?_)
  have := b.isLt; have := h.isLt; have := s.isLt; have := j.isLt
  match a with
  | ⟨0, _⟩ => show (((b.val * 2048 + s.val) * 16 + h.val) * 64 + j.val) / 2097152 = b.val; omega
  | ⟨1, _⟩ => show (((b.val * 2048 + s.val) * 16 + h.val) * 64 + j.val) / 1024 % 2048 = s.val; omega
  | ⟨2, _⟩ => show (((b.val * 2048 + s.val) * 16 + h.val) * 64 + j.val) % 1024 = h.val * 64 + j.val; omega

/-- The scaled query: the projection divided by the square root of 64, that is, times 1/8. -/
theorem q_v8 (x0 : X) (x1 : Wt) (x2 : Bt) (b : Fin 2) (h : Fin 16) (s : Fin 2048) (j : Fin 64) :
    val_main_v8 (F := Ideal) x0 x1 x2 (ix4 b h s j) = Cert.Attn.proj x0 x1 x2 (⟨b.val * 2048 + s.val, by have := b.isLt; have := s.isLt; omega⟩ : Fin 4096) (⟨h.val * 64 + j.val, by have := h.isLt; have := j.isLt; omega⟩ : Fin 1024) * Cert.Attn.c8 := by
  rw [val_main_v8_apply, val_main_v7_apply, val_main_v6_apply, val_main_cst_apply, head_v5, proj_v3]
  exact Cert.Attn.div_sqrt64 _
theorem k_v14 (x0 : X) (x3 : Wt) (x4 : Bt) (b : Fin 2) (h : Fin 16) (s : Fin 2048) (j : Fin 64) :
    val_main_v14 (F := Ideal) x0 x3 x4 (ix4 b h s j) = Cert.Attn.proj x0 x3 x4 (⟨b.val * 2048 + s.val, by have := b.isLt; have := s.isLt; omega⟩ : Fin 4096) (⟨h.val * 64 + j.val, by have := h.isLt; have := j.isLt; omega⟩ : Fin 1024) := by
  rw [head_v14, proj_v12]
theorem v_v20 (x0 : X) (x5 : Wt) (x6 : Bt) (b : Fin 2) (h : Fin 16) (s : Fin 2048) (j : Fin 64) :
    val_main_v20 (F := Ideal) x0 x5 x6 (ix4 b h s j) = Cert.Attn.proj x0 x5 x6 (⟨b.val * 2048 + s.val, by have := b.isLt; have := s.isLt; omega⟩ : Fin 4096) (⟨h.val * 64 + j.val, by have := h.isLt; have := j.isLt; omega⟩ : Fin 1024) := by
  rw [head_v20, proj_v18]

/-! ## The softmax and the weighted sum -/

section Soft
variable (x0 : X) (x1 : Wt) (x2 : Bt) (x3 : Wt) (x4 : Bt) (x5 : Wt) (x6 : Bt)

/-- The score of query row `(b, h, s)` against key row `k`. -/
def sc (b : Fin 2) (h : Fin 16) (s : Fin 2048) (k : Fin 2048) : EReal :=
  ∑ j : Fin 64, val_main_v8 (F := Ideal) x0 x1 x2 (ix4 b h s j) * val_main_v14 (F := Ideal) x0 x3 x4 (ix4 b h k j)

theorem score_v21 (b : Fin 2) (h : Fin 16) (s k : Fin 2048) :
    val_main_v21 (F := Ideal) x0 x1 x2 x3 x4 (ix4 b h s k) = sc x0 x1 x2 x3 x4 b h s k := by
  rw [val_main_v21_apply]
  unfold sc
  refine Finset.sum_congr rfl fun j _ => ?_
  refine congr (congrArg _ (congrArg _ (funext fun a => Fin.ext ?_))) (congrArg _ (funext fun a => Fin.ext ?_))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl | ⟨3, _⟩ => rfl

theorem max_v22 (b : Fin 2) (h : Fin 16) (s : Fin 2048) :
    val_main_v22 (F := Ideal) x0 x1 x2 x3 x4 (ix3 b h s) = (Finset.univ : Finset (Fin 2048)).fold max ⊥ (sc x0 x1 x2 x3 x4 b h s) := by
  have hR : S2x16x2048x2048.Reduces [3] S2x16x2048 := by decide
  unfold val_main_v22
  rw [Host.reduce_eq_fold_single (FloatOps.maximumf (F := Ideal) (φ := .f32)) _ _ reducesTo_S2x16x2048x2048_S2x16x2048_d3 hR h_S_ (ix3 b h s)]
  show Finset.fold max (Ideal.ofBits .f32 0xFF800000#32) (fun k => val_main_v21 (F := Ideal) x0 x1 x2 x3 x4 (hR.lift (ix3 b h s) k)) Finset.univ = _
  rw [Cert.Attn.ofBits_neg_inf]
  refine congrArg (fun f : Fin 2048 → EReal => Finset.fold max ⊥ f Finset.univ) (funext fun (k : Fin 2048) => ?_)
  rw [show hR.lift (ix3 b h s) k = ix4 b h s k from funext fun a => Fin.ext (by match a with | ⟨0, _⟩ => rfl | ⟨1, _⟩ => rfl | ⟨2, _⟩ => rfl | ⟨3, _⟩ => rfl), score_v21]

theorem max_v26 (b : Fin 2) (h : Fin 16) (s k : Fin 2048) :
    val_main_v26 (F := Ideal) x0 x1 x2 x3 x4 (ix4 b h s k) = (Finset.univ : Finset (Fin 2048)).fold max ⊥ (sc x0 x1 x2 x3 x4 b h s) := by
  rw [val_main_v26_apply, val_main_v25_apply, val_main_v24_apply, val_main_v23_apply, val_main_cst_1_apply,
    show idx_main_v25 (idx_main_v26 (ix4 b h s k)) = ix3 b h s from funext fun a => Fin.ext (by match a with | ⟨0, _⟩ => rfl | ⟨1, _⟩ => rfl | ⟨2, _⟩ => rfl), max_v22]
  show max (Ideal.ofBits .f32 0xFF800000#32) _ = _
  rw [Cert.Attn.ofBits_neg_inf]
  exact max_eq_right bot_le

theorem exp_v28 (b : Fin 2) (h : Fin 16) (s k : Fin 2048) :
    val_main_v28 (F := Ideal) x0 x1 x2 x3 x4 (ix4 b h s k)
      = Ideal.exp (sc x0 x1 x2 x3 x4 b h s k - (Finset.univ : Finset (Fin 2048)).fold max ⊥ (sc x0 x1 x2 x3 x4 b h s)) := by
  rw [val_main_v28_apply, val_main_v27_apply, score_v21, max_v26]
  rfl

theorem sum_v31 (b : Fin 2) (h : Fin 16) (s k : Fin 2048) :
    val_main_v31 (F := Ideal) x0 x1 x2 x3 x4 (ix4 b h s k)
      = ∑ k'' : Fin 2048, Ideal.exp (sc x0 x1 x2 x3 x4 b h s k'' - (Finset.univ : Finset (Fin 2048)).fold max ⊥ (sc x0 x1 x2 x3 x4 b h s)) := by
  rw [val_main_v31_apply, val_main_v30_apply, val_main_v29_apply, val_main_cst_2_apply,
    show idx_main_v30 (idx_main_v31 (ix4 b h s k)) = ix3 b h s from funext fun a => Fin.ext (by match a with | ⟨0, _⟩ => rfl | ⟨1, _⟩ => rfl | ⟨2, _⟩ => rfl)]
  show Ideal.ofBits .f32 0x00000000#32 + _ = _
  rw [Ideal.ofBits_zero_f32, zero_add]
  refine Finset.sum_congr rfl fun k'' _ => ?_
  rw [show idx_main_v29 (ix3 b h s) k'' = ix4 b h s k'' from funext fun a => Fin.ext (by match a with | ⟨0, _⟩ => rfl | ⟨1, _⟩ => rfl | ⟨2, _⟩ => rfl | ⟨3, _⟩ => rfl), exp_v28]

/-- The weighted sum of the values is the attention row of the scaled queries, the keys and the value column. -/
theorem soft_v33 (b : Fin 2) (h : Fin 16) (s : Fin 2048) (j : Fin 64) :
    val_main_v33 (F := Ideal) x0 x1 x2 x3 x4 x5 x6 (ix4 b h s j)
      = Cert.Attn.attn (fun j' => val_main_v8 (F := Ideal) x0 x1 x2 (ix4 b h s j'))
          (fun k j' => val_main_v14 (F := Ideal) x0 x3 x4 (ix4 b h k j'))
          (fun k => val_main_v20 (F := Ideal) x0 x5 x6 (ix4 b h k j)) := by
  rw [val_main_v33_apply]
  unfold Cert.Attn.attn
  refine Finset.sum_congr rfl fun k _ => ?_
  rw [show lidx_main_v33 (ix4 b h s j) k = ix4 b h s k from funext fun a => Fin.ext (by match a with | ⟨0, _⟩ => rfl | ⟨1, _⟩ => rfl | ⟨2, _⟩ => rfl | ⟨3, _⟩ => rfl),
    show ridx_main_v33 (ix4 b h s j) k = ix4 b h k j from funext fun a => Fin.ext (by match a with | ⟨0, _⟩ => rfl | ⟨1, _⟩ => rfl | ⟨2, _⟩ => rfl | ⟨3, _⟩ => rfl),
    val_main_v32_apply, exp_v28, sum_v31]
  rfl

end Soft

/-! ## Back to columns, and the output projection -/

section Final
variable (x0 : X) (x1 : Wt) (x2 : Bt) (x3 : Wt) (x4 : Bt) (x5 : Wt) (x6 : Bt) (x7 : Wt) (x8 : Bt)

/-- Column `d` of the folded attention output is head `d / 64`, column `d % 64`. -/
theorem cols_v35 (b : Fin 2) (s : Fin 2048) (d : Fin 1024) :
    val_main_v35 (F := Ideal) x0 x1 x2 x3 x4 x5 x6 (ix3 b s d)
      = val_main_v33 (F := Ideal) x0 x1 x2 x3 x4 x5 x6 (ix4 b (⟨d.val / 64, by have := d.isLt; omega⟩ : Fin 16) s (⟨d.val % 64, Nat.mod_lt _ (by norm_num)⟩ : Fin 64)) := by
  rw [val_main_v35_apply, val_main_v34_apply]
  refine congrArg _ (funext fun a => Fin.ext ?_)
  have := b.isLt; have := s.isLt; have := d.isLt
  match a with
  | ⟨0, _⟩ => show ((b.val * 2048 + s.val) * 1024 + d.val) / 2097152 = b.val; omega
  | ⟨1, _⟩ => show ((b.val * 2048 + s.val) * 1024 + d.val) / 64 % 16 = d.val / 64; omega
  | ⟨2, _⟩ => show ((b.val * 2048 + s.val) * 1024 + d.val) / 1024 % 2048 = s.val; omega
  | ⟨3, _⟩ => show ((b.val * 2048 + s.val) * 1024 + d.val) % 64 = d.val % 64; omega

/-- So it is the attention output `att` at token `2048·b + s`, column `d`. -/
theorem att_v35 (b : Fin 2) (s : Fin 2048) (d : Fin 1024) :
    val_main_v35 (F := Ideal) x0 x1 x2 x3 x4 x5 x6 (ix3 b s d) = Cert.Attn.att x0 x1 x2 x3 x4 x5 x6 (⟨b.val * 2048 + s.val, by have := b.isLt; have := s.isLt; omega⟩ : Fin 4096) d := by
  have := b.isLt; have := s.isLt; have := d.isLt
  rw [cols_v35, soft_v33]
  unfold Cert.Attn.att
  refine congr (congr (congrArg Cert.Attn.attn (funext fun j => ?_)) (funext fun k => funext fun j => ?_)) (funext fun k => ?_)
  · rw [q_v8]
  · have := k.isLt
    rw [k_v14]
    refine congrArg (fun t => Cert.Attn.proj x0 x3 x4 t _) (Fin.ext ?_)
    show b.val * 2048 + k.val = (b.val * 2048 + s.val) / 2048 * 2048 + k.val
    omega
  · have := k.isLt
    rw [v_v20]
    refine congr (congrArg (Cert.Attn.proj x0 x5 x6) (Fin.ext ?_)) (Fin.ext ?_)
    · show b.val * 2048 + k.val = (b.val * 2048 + s.val) / 2048 * 2048 + k.val
      omega
    · show d.val / 64 * 64 + d.val % 64 = d.val
      omega

/-- THE REFERENCE'S RESULT: the result function of its nine arguments. -/
theorem ref_value : val_main_v39 (F := Ideal) x0 x1 x2 x3 x4 x5 x6 x7 x8 = Cert.Attn.result x0 x1 x2 x3 x4 x5 x6 x7 x8 := by
  funext i
  obtain ⟨b, s, e, rfl⟩ : ∃ (b : Fin 2) (s : Fin 2048) (e : Fin 1024), i = ix3 b s e := ⟨i 0, i 1, i 2, eq_ix3 i⟩
  rw [val_main_v39_apply, val_main_v36_apply, val_main_v38_apply, val_main_v37_apply]
  unfold Cert.Attn.result
  show _ + _ = _ + _
  refine congr (congrArg _ (Finset.sum_congr rfl fun d _ => ?_)) ?_
  · rw [show lidx_main_v36 (ix3 b s e) d = ix3 b s d from funext fun a => Fin.ext (by match a with | ⟨0, _⟩ => rfl | ⟨1, _⟩ => rfl | ⟨2, _⟩ => rfl), att_v35]
    exact congrArg (_ * ·) (congrArg x7 (funext fun a => Fin.ext (by match a with | ⟨0, _⟩ => rfl | ⟨1, _⟩ => rfl)))
  · exact congrArg x8 (funext fun a => Fin.ext (by match a with | ⟨0, _⟩ => rfl))

end Final

end Cert.ReferenceIdeal.RefVal

end
-- ==== Proof.lean ====
/-
  Multi-head self-attention, as a TPU program of three kernels against its jnp reference, on the extended reals.

  The program projects 4096 tokens (2 batch entries of 2048) of width 1024 to queries, keys and values in one kernel
  (the query weight and bias multiplied by 1/8 beforehand), computes softmax attention per batch entry and head in a
  second kernel that reads the one q/k/v array through three windows, and applies the output projection in a third.
  The reference projects with the unscaled weights, divides the queries by the square root of 64, and takes the softmax
  of the scores head by head.

  Both compute `Cert.Attn.result` of the nine arguments: multiplying weights and bias by 1/8 is multiplying the
  projection by 1/8 (a nonnegative real constant distributes over sums of extended reals), the square root of 64 is 8,
  the reference's extra maximum against -∞ and its sum started from zero change nothing, and conversions to bf16 are
  the identity here. Each program runs to the end, faults nowhere and leaves its arguments as launched.
-/
import proofs.«158308_j21560735826201_2_alg».proof.Defs
import proofs.«158308_j21560735826201_2_alg».proof.Proof.Gen.Kernel
import proofs.«158308_j21560735826201_2_alg».proof.Proof.Gen.KernelIdeal
import proofs.«158308_j21560735826201_2_alg».proof.Proof.Gen.ReferenceIdeal
import proofs.«158308_j21560735826201_2_alg».proof.Proof.Gen.ReferenceIdeal.Run
import proofs.«158308_j21560735826201_2_alg».proof.Proof.Gen.ReferenceIdeal.Read
import proofs.«158308_j21560735826201_2_alg».proof.Proof.Gen.Pre_finite_inputs
import proofs.«158308_j21560735826201_2_alg».proof.Proof.KkRun
import proofs.«158308_j21560735826201_2_alg».proof.Proof.KiRun
import proofs.«158308_j21560735826201_2_alg».proof.Proof.KvChain
import proofs.«158308_j21560735826201_2_alg».proof.Proof.KvRef
import Idealize.ShloMosaic.Adequacy
import Idealize.ShloMosaic.Init

noncomputable section

namespace Cert.Proof

open Idealize.ShloMosaic Idealize.ShloMosaic.TcCoe Idealize.SL.Sem

/-- The program as printed runs, and its arguments end as launched. -/
theorem frame_k : Cert.frame_Kernel := fun m ρ _ =>
  (θ_run Cert.Kernel.defs _ _).mono (fun _ h c => (h c).2) (Cert.Kernel.Rg.run_main (F := Bits) m ρ)

/-- The same program read on the extended reals. -/
theorem frame_ki : Cert.frame_KernelIdeal := fun m ρ _ =>
  (θ_run Cert.KernelIdeal.defs _ _).mono (fun _ h c => (h c).2) (Cert.KernelIdeal.Rg.run_main (F := Ideal) m ρ)

/-- The reference. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the nine arguments the two programs end with the same result: both are
    `Cert.Attn.result` of the arguments. -/
theorem algebraic : Cert.algebraic_KernelIdeal_ReferenceIdeal := by
  intro m ρ m' ρ' _ hagree
  refine ⟨fun c => Cert.KernelIdeal.Rg.W6 m c (Proc.devRef .tc Cert.KernelIdeal.main_v13),
    Cert.KernelIdeal.Rg.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v39_eq, Cert.ReferenceIdeal.RefVal.ref_value, h0, h1, h2, h3, h4, h5, h6, h7, h8]
  exact (Cert.KernelIdeal.Val.kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
